-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x64 : Shape := ⟨3, ![2, 2048, 64]⟩
abbrev S2x2048x2048 : Shape := ⟨3, ![2, 2048, 2048]⟩
abbrev S5x128x64 : Shape := ⟨3, ![5, 128, 64]⟩
abbrev S2048x64 : Shape := ⟨2, ![2048, 64]⟩
abbrev S_ : Shape := ⟨0, ![]⟩

class Facts : Prop where
  bcast_S_S2x2048x64 : S_.BroadcastsInDim S2x2048x64 (![] : Fin 0 → Fin S2x2048x64.rank)
  reducesTo_S2x2048x64_S_d0_1_2 : S2x2048x64.ReducesTo [0, 1, 2] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S5x128x64 : S_.BroadcastsInDim S5x128x64 (![] : Fin 0 → Fin S5x128x64.rank)
  reducesTo_S5x128x64_S_d0_1_2 : S5x128x64.ReducesTo [0, 1, 2] S_
  bcast_S_S2048x64 : S_.BroadcastsInDim S2048x64 (![] : Fin 0 → Fin S2048x64.rank)
  reducesTo_S2048x64_S_d0_1 : S2048x64.ReducesTo [0, 1] S_

variable [Facts]

def fn_part2 {F : FTy → Type} [FloatOps F] (main_arg7 : FVec F S2048x64 .f32) (main_arg8 : FVec F S2048x64 .f32) (main_v33 : IVec S_ 1) : IVec S_ 1 :=
  let main_v34 : FVec F S2048x64 .f32 := Host.absf main_arg7
  let main_cst_12 : FVec F S_ .f32 := constant S_ .f32 0x7F800000#32
  let main_v35 : FVec F S2048x64 .f32 := broadcastInDim S2048x64 ![] bcast_S_S2048x64 main_cst_12
  let main_v36 : IVec S2048x64 1 := cmpf .olt main_v34 main_v35
  let main_c_13 : IVec S_ 1 := constantI S_ 1 1#1
  let main_v37 : IVec S_ 1 := (fun x v => Host.reduce IntOp.andi x v reducesTo_S2048x64_S_d0_1 h_S_) main_v36 main_c_13
  let main_v38 : IVec S_ 1 := andi main_v33 main_v37
  let main_v39 : FVec F S2048x64 .f32 := Host.absf main_arg8
  let main_cst_14 : FVec F S_ .f32 := constant S_ .f32 0x7F800000#32
  let main_v40 : FVec F S2048x64 .f32 := broadcastInDim S2048x64 ![] bcast_S_S2048x64 main_cst_14
  let main_v41 : IVec S2048x64 1 := cmpf .olt main_v39 main_v40
  let main_c_15 : IVec S_ 1 := constantI S_ 1 1#1
  let main_v42 : IVec S_ 1 := (fun x v => Host.reduce IntOp.andi x v reducesTo_S2048x64_S_d0_1 h_S_) main_v41 main_c_15
  let main_v43 : IVec S_ 1 := andi main_v38 main_v42
  main_v43

def fn_part1 {F : FTy → Type} [FloatOps F] (main_arg4 : FVec F S5x128x64 .f32) (main_arg5 : FVec F S5x128x64 .f32) (main_arg6 : FVec F S2048x64 .f32) (main_arg7 : FVec F S2048x64 .f32) (main_arg8 : FVec F S2048x64 .f32) (main_v13 : IVec S_ 1) (main_v16 : IVec S5x128x64 1) : IVec S_ 1 :=
  let main_c_5 : IVec S_ 1 := constantI S_ 1 1#1
  let main_v17 : IVec S_ 1 := (fun x v => Host.reduce IntOp.andi x v reducesTo_S5x128x64_S_d0_1_2 h_S_) main_v16 main_c_5
  let main_v18 : IVec S_ 1 := andi main_v13 main_v17
  let main_v19 : FVec F S5x128x64 .f32 := Host.absf main_arg4
  let main_cst_6 : FVec F S_ .f32 := constant S_ .f32 0x7F800000#32
  let main_v20 : FVec F S5x128x64 .f32 := broadcastInDim S5x128x64 ![] bcast_S_S5x128x64 main_cst_6
  let main_v21 : IVec S5x128x64 1 := cmpf .olt main_v19 main_v20
  let main_c_7 : IVec S_ 1 := constantI S_ 1 1#1
  let main_v22 : IVec S_ 1 := (fun x v => Host.reduce IntOp.andi x v reducesTo_S5x128x64_S_d0_1_2 h_S_) main_v21 main_c_7
  let main_v23 : IVec S_ 1 := andi main_v18 main_v22
  let main_v24 : FVec F S5x128x64 .f32 := Host.absf main_arg5
  let main_cst_8 : FVec F S_ .f32 := constant S_ .f32 0x7F800000#32
  let main_v25 : FVec F S5x128x64 .f32 := broadcastInDim S5x128x64 ![] bcast_S_S5x128x64 main_cst_8
  let main_v26 : IVec S5x128x64 1 := cmpf .olt main_v24 main_v25
  let main_c_9 : IVec S_ 1 := constantI S_ 1 1#1
  let main_v27 : IVec S_ 1 := (fun x v => Host.reduce IntOp.andi x v reducesTo_S5x128x64_S_d0_1_2 h_S_) main_v26 main_c_9
  let main_v28 : IVec S_ 1 := andi main_v23 main_v27
  let main_v29 : FVec F S2048x64 .f32 := Host.absf main_arg6
  let main_cst_10 : FVec F S_ .f32 := constant S_ .f32 0x7F800000#32
  let main_v30 : FVec F S2048x64 .f32 := broadcastInDim S2048x64 ![] bcast_S_S2048x64 main_cst_10
  let main_v31 : IVec S2048x64 1 := cmpf .olt main_v29 main_v30
  let main_c_11 : IVec S_ 1 := constantI S_ 1 1#1
  let main_v32 : IVec S_ 1 := (fun x v => Host.reduce IntOp.andi x v reducesTo_S2048x64_S_d0_1 h_S_) main_v31 main_c_11
  let main_v33 : IVec S_ 1 := andi main_v28 main_v32
  fn_part2 (F := F) main_arg7 main_arg8 main_v33

def fn {F : FTy → Type} [FloatOps F] (main_arg0 : FVec F S2x2048x64 .f32) (main_arg1 : FVec F S2x2048x2048 .f32) (main_arg2 : FVec F S2x2048x64 .f32) (main_arg3 : FVec F S5x128x64 .f32) (main_arg4 : FVec F S5x128x64 .f32) (main_arg5 : FVec F S5x128x64 .f32) (main_arg6 : FVec F S2048x64 .f32) (main_arg7 : FVec F S2048x64 .f32) (main_arg8 : FVec F S2048x64 .f32) : IVec S_ 1 :=
  let main_v0 : FVec F S2x2048x64 .f32 := Host.absf main_arg0
  let main_cst : FVec F S_ .f32 := constant S_ .f32 0x7F800000#32
  let main_v1 : FVec F S2x2048x64 .f32 := broadcastInDim S2x2048x64 ![] bcast_S_S2x2048x64 main_cst
  let main_v2 : IVec S2x2048x64 1 := cmpf .olt main_v0 main_v1
  let main_c : IVec S_ 1 := constantI S_ 1 1#1
  let main_v3 : IVec S_ 1 := (fun x v => Host.reduce IntOp.andi x v reducesTo_S2x2048x64_S_d0_1_2 h_S_) main_v2 main_c
  let main_v4 : FVec F S2x2048x2048 .f32 := Host.absf main_arg1
  let main_cst_0 : FVec F S_ .f32 := constant S_ .f32 0x7F800000#32
  let main_v5 : FVec F S2x2048x2048 .f32 := broadcastInDim S2x2048x2048 ![] bcast_S_S2x2048x2048 main_cst_0
  let main_v6 : IVec S2x2048x2048 1 := cmpf .olt main_v4 main_v5
  let main_c_1 : IVec S_ 1 := constantI S_ 1 1#1
  let main_v7 : IVec S_ 1 := (fun x v => Host.reduce IntOp.andi x v reducesTo_S2x2048x2048_S_d0_1_2 h_S_) main_v6 main_c_1
  let main_v8 : IVec S_ 1 := andi main_v3 main_v7
  let main_v9 : FVec F S2x2048x64 .f32 := Host.absf main_arg2
  let main_cst_2 : FVec F S_ .f32 := constant S_ .f32 0x7F800000#32
  let main_v10 : FVec F S2x2048x64 .f32 := broadcastInDim S2x2048x64 ![] bcast_S_S2x2048x64 main_cst_2
  let main_v11 : IVec S2x2048x64 1 := cmpf .olt main_v9 main_v10
  let main_c_3 : IVec S_ 1 := constantI S_ 1 1#1
  let main_v12 : IVec S_ 1 := (fun x v => Host.reduce IntOp.andi x v reducesTo_S2x2048x64_S_d0_1_2 h_S_) main_v11 main_c_3
  let main_v13 : IVec S_ 1 := andi main_v8 main_v12
  let main_v14 : FVec F S5x128x64 .f32 := Host.absf main_arg3
  let main_cst_4 : FVec F S_ .f32 := constant S_ .f32 0x7F800000#32
  let main_v15 : FVec F S5x128x64 .f32 := broadcastInDim S5x128x64 ![] bcast_S_S5x128x64 main_cst_4
  let main_v16 : IVec S5x128x64 1 := cmpf .olt main_v14 main_v15
  fn_part1 (F := F) main_arg4 main_arg5 main_arg6 main_arg7 main_arg8 main_v13 main_v16
-- ==== Kernel.lean ====
abbrev S2x2048x64 : Shape := ⟨3, ![2, 2048, 64]⟩
abbrev S2x2048x2048 : Shape := ⟨3, ![2, 2048, 2048]⟩
abbrev S5x128x64 : Shape := ⟨3, ![5, 128, 64]⟩
abbrev S2048x64 : Shape := ⟨2, ![2048, 64]⟩
abbrev S5x128x128 : Shape := ⟨3, ![5, 128, 128]⟩
abbrev S128x5x128 : Shape := ⟨3, ![128, 5, 128]⟩
abbrev S128x640 : Shape := ⟨2, ![128, 640]⟩
abbrev S128x5x64 : Shape := ⟨3, ![128, 5, 64]⟩
abbrev S128x320 : Shape := ⟨2, ![128, 320]⟩
abbrev S1x2048x64 : Shape := ⟨3, ![1, 2048, 64]⟩
abbrev S2048x128 : Shape := ⟨2, ![2048, 128]⟩
abbrev S2048x640 : Shape := ⟨2, ![2048, 640]⟩
abbrev S1x2048x2048 : Shape := ⟨3, ![1, 2048, 2048]⟩
abbrev S2048x2048 : Shape := ⟨2, ![2048, 2048]⟩
abbrev S2048x320 : Shape := ⟨2, ![2048, 320]⟩

abbrev nBuf : Space → Nat
  | .hbm => 18
  | .vmem => 9
  | .smem => 0
  | _ => 0

abbrev bufTy : (tb : Table) → Fin (tcTables nBuf tb) → BufTy
  | .hbm, ⟨0, _⟩ => ⟨S2x2048x64, .f32⟩
  | .hbm, ⟨1, _⟩ => ⟨S2x2048x2048, .f32⟩
  | .hbm, ⟨2, _⟩ => ⟨S2x2048x64, .f32⟩
  | .hbm, ⟨3, _⟩ => ⟨S5x128x64, .f32⟩
  | .hbm, ⟨4, _⟩ => ⟨S5x128x64, .f32⟩
  | .hbm, ⟨5, _⟩ => ⟨S5x128x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2x2048x2048, .bf16⟩
  | .hbm, ⟨10, _⟩ => ⟨S5x128x128, .f32⟩
  | .hbm, ⟨11, _⟩ => ⟨S128x5x128, .f32⟩
  | .hbm, ⟨12, _⟩ => ⟨S128x640, .f32⟩
  | .hbm, ⟨13, _⟩ => ⟨S128x640, .bf16⟩
  | .hbm, ⟨14, _⟩ => ⟨S128x5x64, .f32⟩
  | .hbm, ⟨15, _⟩ => ⟨S128x320, .f32⟩
  | .hbm, ⟨16, _⟩ => ⟨S128x320, .bf16⟩
  | .hbm, ⟨17, _⟩ => ⟨S2x2048x64, .f32⟩
  | .local _ .vmem, ⟨0, _⟩ => ⟨S2x2048x2048, .bf16⟩
  | .local _ .vmem, ⟨1, _⟩ => ⟨S2x2048x64, .f32⟩
  | .local _ .vmem, ⟨2, _⟩ => ⟨S2x2048x64, .f32⟩
  | .local _ .vmem, ⟨3, _⟩ => ⟨S128x640, .bf16⟩
  | .local _ .vmem, ⟨4, _⟩ => ⟨S128x320, .bf16⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2x2048x64, .f32⟩
  | _, _ => ⟨S2x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_v0 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x320 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

class Facts₀ : Prop where
  bitsLt_bf16_f32 : FTy.bits .bf16 < FTy.bits .f32
  concatenates_S5x128x64_S5x128x64_S5x128x128_d2 : Shape.Concatenates [S5x128x64, S5x128x64] S5x128x128 2
  transposes_S5x128x128_S128x5x128_1_0_2 : S5x128x128.Transposes [1, 0, 2] S128x5x128
  shapeCasts_S128x5x128_S128x640 : S128x5x128.ShapeCasts S128x640
  transposes_S5x128x64_S128x5x64_1_0_2 : S5x128x64.Transposes [1, 0, 2] S128x5x64
  shapeCasts_S128x5x64_S128x320 : S128x5x64.ShapeCasts S128x320
  inb_S2x2048x64_S1x2048x64_0_0_0 : ∀ a, (![0, 0, 0] : Fin 3 → Nat) a + S1x2048x64.size a ≤ S2x2048x64.size a
  h_S1x2048x64 : 0 < S1x2048x64.numel
  shapeCasts_S1x2048x64_S2048x64 : S1x2048x64.ShapeCasts S2048x64
  concatenates_S2048x64_S2048x64_S2048x128_d1 : Shape.Concatenates [S2048x64, S2048x64] S2048x128 1
  inb_S2x2048x64_S1x2048x64_1_0_0 : ∀ a, (![1, 0, 0] : Fin 3 → Nat) a + S1x2048x64.size a ≤ S2x2048x64.size a
  inb_S128x640_S128x640_0_0 : ∀ a, (![0, 0] : Fin 2 → Nat) a + S128x640.size a ≤ S128x640.size a
  h_S128x640 : 0 < S128x640.numel
  shapeCasts_S128x640_S128x640 : S128x640.ShapeCasts S128x640
  slices_S2048x640_o0_512_S2048x128 : S2048x640.Slices ![0, 512] S2048x128
  inb_S2x2048x2048_S1x2048x2048_0_0_0 : ∀ a, (![0, 0, 0] : Fin 3 → Nat) a + S1x2048x2048.size a ≤ S2x2048x2048.size a
  h_S1x2048x2048 : 0 < S1x2048x2048.numel
  shapeCasts_S1x2048x2048_S2048x2048 : S1x2048x2048.ShapeCasts S2048x2048
  slices_S2048x640_o0_384_S2048x128 : S2048x640.Slices ![0, 384] S2048x128
  inb_S2x2048x2048_S1x2048x2048_1_0_0 : ∀ a, (![1, 0, 0] : Fin 3 → Nat) a + S1x2048x2048.size a ≤ S2x2048x2048.size a
  slices_S2048x640_o0_256_S2048x128 : S2048x640.Slices ![0, 256] S2048x128
  slices_S2048x640_o0_128_S2048x128 : S2048x640.Slices ![0, 128] S2048x128
  slices_S2048x640_o0_0_S2048x128 : S2048x640.Slices ![0, 0] S2048x128
  slices_S2048x128_o0_0_S2048x64 : S2048x128.Slices ![0, 0] S2048x64
  inb_S2048x64_S2048x64_0_0 : ∀ a, (![0, 0] : Fin 2 → Nat) a + S2048x64.size a ≤ S2048x64.size a
  h_S2048x64 : 0 < S2048x64.numel
  slices_S2048x128_o0_64_S2048x64 : S2048x128.Slices ![0, 64] S2048x64
  inb_S128x320_S128x320_0_0 : ∀ a, (![0, 0] : Fin 2 → Nat) a + S128x320.size a ≤ S128x320.size a
  h_S128x320 : 0 < S128x320.numel
  shapeCasts_S128x320_S128x320 : S128x320.ShapeCasts S128x320
  slices_S2048x320_o0_256_S2048x64 : S2048x320.Slices ![0, 256] S2048x64
  slices_S2048x320_o0_192_S2048x64 : S2048x320.Slices ![0, 192] S2048x64
  slices_S2048x320_o0_128_S2048x64 : S2048x320.Slices ![0, 128] S2048x64
  slices_S2048x320_o0_64_S2048x64 : S2048x320.Slices ![0, 64] S2048x64
  slices_S2048x320_o0_0_S2048x64 : S2048x320.Slices ![0, 0] S2048x64
  shapeCasts_S2048x64_S1x2048x64 : S2048x64.ShapeCasts S1x2048x64
  dot_S2048x128_S128x640_S2048x640_1_0_0_1_n_n_wf : DotDims.WF S2048x128 S128x640 S2048x640 [1] [0] [0] [1] [] []
  dot_S2048x2048_S2048x128_S2048x128_1_0_0_1_n_n_wf : DotDims.WF S2048x2048 S2048x128 S2048x128 [1] [0] [0] [1] [] []
  dot_S2048x128_S128x320_S2048x320_1_0_0_1_n_n_wf : DotDims.WF S2048x128 S128x320 S2048x320 [1] [0] [0] [1] [] []
  dot_S2048x2048_S2048x64_S2048x64_1_0_0_1_n_n_wf : DotDims.WF S2048x2048 S2048x64 S2048x64 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole

variable [Facts₀]

def dot_S2048x128_S128x640_S2048x640_1_0_0_1_n_n : DotDims S2048x128 S128x640 S2048x640 where
  lhsContracting := [1]
  rhsContracting := [0]
  lhsNonContracting := [0]
  rhsNonContracting := [1]
  lhsBatch := []
  rhsBatch := []
  wf := dot_S2048x128_S128x640_S2048x640_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x320_S2048x320_1_0_0_1_n_n : DotDims S2048x128 S128x320 S2048x320 where
  lhsContracting := [1]
  rhsContracting := [0]
  lhsNonContracting := [0]
  rhsNonContracting := [1]
  lhsBatch := []
  rhsBatch := []
  wf := dot_S2048x128_S128x320_S2048x320_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.whole (Memref.whole main_call0_v0) false false (stage0_0 0) (sem0_0 0) (Memref.isWhole_whole _) (hstage0_0 0)

abbrev win0_1 : Pipeline.Window sig grid0 :=
  Pipeline.Window.whole (Memref.whole main_arg0) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_call0_v4) false false (stage0_3 0) (sem0_3 0) (Memref.isWhole_whole _) (hstage0_3 0)

abbrev win0_4 : Pipeline.Window sig grid0 :=
  Pipeline.Window.whole (Memref.whole main_call0_v7) false false (stage0_4 0) (sem0_4 0) (Memref.isWhole_whole _) (hstage0_4 0)

abbrev win0_5 : Pipeline.Window sig grid0 :=
  Pipeline.Window.whole (Memref.whole main_arg6) false false (stage0_5 0) (sem0_5 0) (Memref.isWhole_whole _) (hstage0_5 0)

abbrev win0_6 : Pipeline.Window sig grid0 :=
  Pipeline.Window.whole (Memref.whole main_arg7) false false (stage0_6 0) (sem0_6 0) (Memref.isWhole_whole _) (hstage0_6 0)

abbrev win0_7 : Pipeline.Window sig grid0 :=
  Pipeline.Window.whole (Memref.whole main_arg8) false false (stage0_7 0) (sem0_7 0) (Memref.isWhole_whole _) (hstage0_7 0)

abbrev win0_8 : Pipeline.Window sig grid0 :=
  Pipeline.Window.whole (Memref.whole main_v0) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x2048x64 : Shape := ⟨3, ![2, 2048, 64]⟩
abbrev S2x2048x2048 : Shape := ⟨3, ![2, 2048, 2048]⟩
abbrev S5x128x64 : Shape := ⟨3, ![5, 128, 64]⟩
abbrev S2048x64 : Shape := ⟨2, ![2048, 64]⟩
abbrev S2x2048x128 : Shape := ⟨3, ![2, 2048, 128]⟩
abbrev S1x128x64 : Shape := ⟨3, ![1, 128, 64]⟩
abbrev S128x64 : Shape := ⟨2, ![128, 64]⟩
abbrev S1x2048x64 : Shape := ⟨3, ![1, 2048, 64]⟩
abbrev S_ : Shape := ⟨0, ![]⟩

abbrev nBuf : Space → Nat
  | .hbm => 113
  | .vmem => 0
  | .smem => 0
  | _ => 0

abbrev bufTy : (tb : Table) → Fin (tcTables nBuf tb) → BufTy
  | .hbm, ⟨0, _⟩ => ⟨S2x2048x64, .f32⟩
  | .hbm, ⟨1, _⟩ => ⟨S2x2048x2048, .f32⟩
  | .hbm, ⟨2, _⟩ => ⟨S2x2048x64, .f32⟩
  | .hbm, ⟨3, _⟩ => ⟨S5x128x64, .f32⟩
  | .hbm, ⟨4, _⟩ => ⟨S5x128x64, .f32⟩
  | .hbm, ⟨5, _⟩ => ⟨S5x128x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2x2048x128, .f32⟩
  | .hbm, ⟨10, _⟩ => ⟨S1x128x64, .f32⟩
  | .hbm, ⟨11, _⟩ => ⟨S128x64, .f32⟩
  | .hbm, ⟨12, _⟩ => ⟨S2x2048x64, .f32⟩
  | .hbm, ⟨13, _⟩ => ⟨S2x2048x128, .f32⟩
  | .hbm, ⟨14, _⟩ => ⟨S1x128x64, .f32⟩
  | .hbm, ⟨15, _⟩ => ⟨S128x64, .f32⟩
  | .hbm, ⟨16, _⟩ => ⟨S2x2048x64, .f32⟩
  | .hbm, ⟨17, _⟩ => ⟨S2x2048x64, .f32⟩
  | .hbm, ⟨18, _⟩ => ⟨S2x2048x128, .f32⟩
  | .hbm, ⟨19, _⟩ => ⟨S1x128x64, .f32⟩
  | .hbm, ⟨20, _⟩ => ⟨S128x64, .f32⟩
  | .hbm, ⟨21, _⟩ => ⟨S2x2048x64, .f32⟩
  | .hbm, ⟨22, _⟩ => ⟨S2x2048x64, .f32⟩
  | .hbm, ⟨23, _⟩ => ⟨S2x2048x128, .f32⟩
  | .hbm, ⟨24, _⟩ => ⟨S1x128x64, .f32⟩
  | .hbm, ⟨25, _⟩ => ⟨S128x64, .f32⟩
  | .hbm, ⟨26, _⟩ => ⟨S2x2048x64, .f32⟩
  | .hbm, ⟨27, _⟩ => ⟨S2x2048x64, .f32⟩
  | .hbm, ⟨28, _⟩ => ⟨S2x2048x128, .f32⟩
  | .hbm, ⟨29, _⟩ => ⟨S1x128x64, .f32⟩
  | .hbm, ⟨30, _⟩ => ⟨S128x64, .f32⟩
  | .hbm, ⟨31, _⟩ => ⟨S2x2048x64, .f32⟩
  | .hbm, ⟨32, _⟩ => ⟨S2x2048x64, .f32⟩
  | .hbm, ⟨33, _⟩ => ⟨S1x2048x64, .f32⟩
  | .hbm, ⟨34, _⟩ => ⟨S2x2048x64, .f32⟩
  | .hbm, ⟨35, _⟩ => ⟨S2x2048x64, .f32⟩
  | .hbm, ⟨36, _⟩ => ⟨S2x2048x64, .f32⟩
  | .hbm, ⟨37, _⟩ => ⟨S2x2048x64, .f32⟩
  | .hbm, ⟨38, _⟩ => ⟨S_, .f32⟩
  | .hbm, ⟨39, _⟩ => ⟨S2x2048x64, .f32⟩
  | .hbm, ⟨40, _⟩ => ⟨S2x2048x64, .f32⟩
  | .hbm, ⟨41, _⟩ => ⟨S_, .f32⟩
  | .hbm, ⟨42, _⟩ => ⟨S2x2048x64, .f32⟩
  | .hbm, ⟨43, _⟩ => ⟨S2x2048x64, .f32⟩
  | .hbm, ⟨44, _⟩ => ⟨S1x128x64, .f32⟩
  | .hbm, ⟨45, _⟩ => ⟨S128x64, .f32⟩
  | .hbm, ⟨46, _⟩ => ⟨S2x2048x64, .f32⟩
  | .hbm, ⟨47, _⟩ => ⟨S2x2048x128, .f32⟩
  | .hbm, ⟨48, _⟩ => ⟨S1x128x64, .f32⟩
  | .hbm, ⟨49, _⟩ => ⟨S128x64, .f32⟩
  | .hbm, ⟨50, _⟩ => ⟨S2x2048x64, .f32⟩
  | .hbm, ⟨51, _⟩ => ⟨S2x2048x64, .f32⟩
  | .hbm, ⟨52, _⟩ => ⟨S2x2048x128, .f32⟩
  | .hbm, ⟨53, _⟩ => ⟨S1x128x64, .f32⟩
  | .hbm, ⟨54, _⟩ => ⟨S128x64, .f32⟩
  | .hbm, ⟨55, _⟩ => ⟨S2x2048x64, .f32⟩
  | .hbm, ⟨56, _⟩ => ⟨S2x2048x64, .f32⟩
  | .hbm, ⟨57, _⟩ => ⟨S2x2048x128, .f32⟩
  | .hbm, ⟨58, _⟩ => ⟨S1x128x64, .f32⟩
  | .hbm, ⟨59, _⟩ => ⟨S128x64, .f32⟩
  | .hbm, ⟨60, _⟩ => ⟨S2x2048x64, .f32⟩
  | .hbm, ⟨61, _⟩ => ⟨S2x2048x64, .f32⟩
  | .hbm, ⟨62, _⟩ => ⟨S2x2048x128, .f32⟩
  | .hbm, ⟨63, _⟩ => ⟨S1x128x64, .f32⟩
  | .hbm, ⟨64, _⟩ => ⟨S128x64, .f32⟩
  | .hbm, ⟨65, _⟩ => ⟨S2x2048x64, .f32⟩
  | .hbm, ⟨66, _⟩ => ⟨S2x2048x64, .f32⟩
  | .hbm, ⟨67, _⟩ => ⟨S1x2048x64, .f32⟩
  | .hbm, ⟨68, _⟩ => ⟨S2x2048x64, .f32⟩
  | .hbm, ⟨69, _⟩ => ⟨S2x2048x64, .f32⟩
  | .hbm, ⟨70, _⟩ => ⟨S2x2048x64, .f32⟩
  | .hbm, ⟨71, _⟩ => ⟨S2x2048x64, .f32⟩
  | .hbm, ⟨72, _⟩ => ⟨S_, .f32⟩
  | .hbm, ⟨73, _⟩ => ⟨S2x2048x64, .f32⟩
  | .hbm, ⟨74, _⟩ => ⟨S2x2048x64, .f32⟩
  | .hbm, ⟨75, _⟩ => ⟨S_, .f32⟩
  | .hbm, ⟨76, _⟩ => ⟨S2x2048x64, .f32⟩
  | .hbm, ⟨77, _⟩ => ⟨S2x2048x64, .f32⟩
  | .hbm, ⟨78, _⟩ => ⟨S2x2048x64, .f32⟩
  | .hbm, ⟨79, _⟩ => ⟨S2x2048x128, .f32⟩
  | .hbm, ⟨80, _⟩ => ⟨S1x128x64, .f32⟩
  | .hbm, ⟨81, _⟩ => ⟨S128x64, .f32⟩
  | .hbm, ⟨82, _⟩ => ⟨S2x2048x64, .f32⟩
  | .hbm, ⟨83, _⟩ => ⟨S2x2048x128, .f32⟩
  | .hbm, ⟨84, _⟩ => ⟨S1x128x64, .f32⟩
  | .hbm, ⟨85, _⟩ => ⟨S128x64, .f32⟩
  | .hbm, ⟨86, _⟩ => ⟨S2x2048x64, .f32⟩
  | .hbm, ⟨87, _⟩ => ⟨S2x2048x64, .f32⟩
  | .hbm, ⟨88, _⟩ => ⟨S2x2048x128, .f32⟩
  | .hbm, ⟨89, _⟩ => ⟨S1x128x64, .f32⟩
  | .hbm, ⟨90, _⟩ => ⟨S128x64, .f32⟩
  | .hbm, ⟨91, _⟩ => ⟨S2x2048x64, .f32⟩
  | .hbm, ⟨92, _⟩ => ⟨S2x2048x64, .f32⟩
  | .hbm, ⟨93, _⟩ => ⟨S2x2048x128, .f32⟩
  | .hbm, ⟨94, _⟩ => ⟨S1x128x64, .f32⟩
  | .hbm, ⟨95, _⟩ => ⟨S128x64, .f32⟩
  | .hbm, ⟨96, _⟩ => ⟨S2x2048x64, .f32⟩
  | .hbm, ⟨97, _⟩ => ⟨S2x2048x64, .f32⟩
  | .hbm, ⟨98, _⟩ => ⟨S2x2048x128, .f32⟩
  | .hbm, ⟨99, _⟩ => ⟨S1x128x64, .f32⟩
  | .hbm, ⟨100, _⟩ => ⟨S128x64, .f32⟩
  | .hbm, ⟨101, _⟩ => ⟨S2x2048x64, .f32⟩
  | .hbm, ⟨102, _⟩ => ⟨S2x2048x64, .f32⟩
  | .hbm, ⟨103, _⟩ => ⟨S1x2048x64, .f32⟩
  | .hbm, ⟨104, _⟩ => ⟨S2x2048x64, .f32⟩
  | .hbm, ⟨105, _⟩ => ⟨S2x2048x64, .f32⟩
  | .hbm, ⟨106, _⟩ => ⟨S2x2048x64, .f32⟩
  | .hbm, ⟨107, _⟩ => ⟨S2x2048x64, .f32⟩
  | .hbm, ⟨108, _⟩ => ⟨S_, .f32⟩
  | .hbm, ⟨109, _⟩ => ⟨S2x2048x64, .f32⟩
  | .hbm, ⟨110, _⟩ => ⟨S2x2048x64, .f32⟩
  | .hbm, ⟨111, _⟩ => ⟨S2x2048x64, .f32⟩
  | .hbm, ⟨112, _⟩ => ⟨S2x2048x64, .f32⟩
  | _, _ => ⟨S2x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_1 : Ref sig .tc := ⟨.hbm, 72, rfl⟩
abbrev main_v61 : Ref sig .tc := ⟨.hbm, 73, rfl⟩
abbrev main_v62 : Ref sig .tc := ⟨.hbm, 74, rfl⟩
abbrev main_cst_2 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_cst_3 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩

abbrev nD : Nat := 1
abbrev τ : Topo := Topo.v7x

variable {F : FTy → Type} [FloatOps F]

class Facts₀ : Prop where
  concatenates_S2x2048x64_S2x2048x64_S2x2048x128_d2 : Shape.Concatenates [S2x2048x64, S2x2048x64] S2x2048x128 2
  slices_S5x128x64_S1x128x64_0_0_0 : S5x128x64.Slices ![0, 0, 0] S1x128x64
  shapeCasts_S1x128x64_S128x64 : S1x128x64.ShapeCasts S128x64
  slices_S5x128x64_S1x128x64_1_0_0 : S5x128x64.Slices ![1, 0, 0] S1x128x64
  slices_S5x128x64_S1x128x64_2_0_0 : S5x128x64.Slices ![2, 0, 0] S1x128x64
  slices_S5x128x64_S1x128x64_3_0_0 : S5x128x64.Slices ![3, 0, 0] S1x128x64
  slices_S5x128x64_S1x128x64_4_0_0 : S5x128x64.Slices ![4, 0, 0] S1x128x64
  bcast_S2048x64_S1x2048x64_1_2 : S2048x64.BroadcastsInDim S1x2048x64 (![1, 2] : Fin 2 → Fin S1x2048x64.rank)
  bcast_S1x2048x64_S2x2048x64_0_1_2 : S1x2048x64.BroadcastsInDim S2x2048x64 (![0, 1, 2] : Fin 3 → Fin S2x2048x64.rank)
  bcast_S_S2x2048x64 : S_.BroadcastsInDim S2x2048x64 (![] : Fin 0 → Fin S2x2048x64.rank)
  dot_S2x2048x128_S128x64_S2x2048x64_2_0_01_1_n_n_wf : DotDims.WF S2x2048x128 S128x64 S2x2048x64 [2] [0] [0, 1] [1] [] []
  dot_S2x2048x2048_S2x2048x128_S2x2048x128_2_1_1_2_0_0_wf : DotDims.WF S2x2048x2048 S2x2048x128 S2x2048x128 [2] [1] [1] [2] [0] [0]

variable [Facts₀]

def dot_S2x2048x128_S128x64_S2x2048x64_2_0_01_1_n_n : DotDims S2x2048x128 S128x64 S2x2048x64 where
  lhsContracting := [2]
  rhsContracting := [0]
  lhsNonContracting := [0, 1]
  rhsNonContracting := [1]
  lhsBatch := []
  rhsBatch := []
  wf := dot_S2x2048x128_S128x64_S2x2048x64_2_0_01_1_n_n_wf
def dot_S2x2048x2048_S2x2048x128_S2x2048x128_2_1_1_2_0_0 : DotDims S2x2048x2048 S2x2048x128 S2x2048x128 where
  lhsContracting := [2]
  rhsContracting := [1]
  lhsNonContracting := [1]
  rhsNonContracting := [2]
  lhsBatch := [0]
  rhsBatch := [0]
  wf := dot_S2x2048x2048_S2x2048x128_S2x2048x128_2_1_1_2_0_0_wf

class Facts : Prop extends Facts₀ where

variable [Facts]
-- ==== Proof.Spec.lean ====
/-
  A graph-diffusion GRU cell, entry by entry, over the extended reals.

  One batch: a node-by-node matrix `A` (2048 x 2048), node features `X` and a hidden state `H` (2048 x 64 each),
  five hop weights per gate (each 128 x 64) and three bias arrays (2048 x 64).  With `Z = (X | H)` the diffusion
  convolution of `Z` against weights `W_0 .. W_4` is  sum_k A^k Z W_k.  The reset and update gates are the logistic
  function of such a convolution plus a bias; the candidate state is tanh of the convolution of `(X | r * H)`
  plus a bias; the new state is  u * H + (1 - u) * candidate.

  The convolution is written twice: by POWERS (T_0 = Z, T_{k+1} = A T_k, the sum of T_k W_k, added left to
  right) and in HORNER form (Z W_0 + A (Z W_1 + A (Z W_2 + A (Z W_3 + A (Z W_4))))), both for ONE output
  column, so that the weights enter as five column vectors `v k : Fin 128 -> EReal`.
-/
import Idealize.ShloMosaic.PureOps.Ideal

noncomputable section

open scoped BigOperators

namespace Cert.Gru

open Idealize.ShloMosaic

/-- Two 64-column blocks side by side: column `f < 64` is `X`'s, column `64 + j` is `Y`'s column `j`. -/
def cat (X Y : Fin 2048 → Fin 64 → EReal) (n : Fin 2048) (f : Fin 128) : EReal :=
  if h : f.val < 64 then X n ⟨f.val, h⟩ else Y n ⟨f.val - 64, by omega⟩

/-- A 2048 x 128 array times a column vector. -/
def pv (Z : Fin 2048 → Fin 128 → EReal) (v : Fin 128 → EReal) (n : Fin 2048) : EReal :=
  ∑ f : Fin 128, Z n f * v f

/-- The node matrix times a column vector. -/
def av (A : Fin 2048 → Fin 2048 → EReal) (p : Fin 2048 → EReal) (n : Fin 2048) : EReal :=
  ∑ m : Fin 2048, A n m * p m

/-- One diffusion hop of a 2048 x 128 array: `A T`. -/
def hop (A : Fin 2048 → Fin 2048 → EReal) (T : Fin 2048 → Fin 128 → EReal) : Fin 2048 → Fin 128 → EReal :=
  fun n f => ∑ m : Fin 2048, A n m * T m f

/-- One column of  sum_k A^k Z W_k, by powers, the five terms added left to right. -/
def powers (A : Fin 2048 → Fin 2048 → EReal) (Z : Fin 2048 → Fin 128 → EReal) (v : Fin 5 → Fin 128 → EReal)
    (n : Fin 2048) : EReal :=
  pv Z (v 0) n + pv (hop A Z) (v 1) n + pv (hop A (hop A Z)) (v 2) n + pv (hop A (hop A (hop A Z))) (v 3) n
    + pv (hop A (hop A (hop A (hop A Z)))) (v 4) n

/-- The same column in Horner form. -/
def horner (A : Fin 2048 → Fin 2048 → EReal) (Z : Fin 2048 → Fin 128 → EReal) (v : Fin 5 → Fin 128 → EReal)
    (n : Fin 2048) : EReal :=
  av A (fun m => av A (fun m => av A (fun m => av A (pv Z (v 4)) m + pv Z (v 3) m) m + pv Z (v 2) m) m
    + pv Z (v 1) m) n + pv Z (v 0) n

/-- The cell's new state at node `n`, column `j`, from the three convolutions: `cr` and `cu` are the reset and
    update gates' convolutions of `(X | H)` as arrays, `cc` the candidate's convolution as a function of its
    input array `(X | r * H)`. -/
def cell (cr cu : Fin 2048 → Fin 64 → EReal) (cc : (Fin 2048 → Fin 128 → EReal) → Fin 2048 → Fin 64 → EReal)
    (X H br bu bc : Fin 2048 → Fin 64 → EReal) (n : Fin 2048) (j : Fin 64) : EReal :=
  Ideal.logistic (cu n j + bu n j) * H n j
    + (1 - Ideal.logistic (cu n j + bu n j))
      * Ideal.tanh (cc (cat X (fun n' j' => Ideal.logistic (cr n' j' + br n' j') * H n' j')) n j + bc n j)

/-- The cell with each convolution by powers against per-hop weights `W k : 128 x 64`. -/
def refCell (X : Fin 2048 → Fin 64 → EReal) (A : Fin 2048 → Fin 2048 → EReal) (H : Fin 2048 → Fin 64 → EReal)
    (Wr Wu Wc : Fin 5 → Fin 128 → Fin 64 → EReal) (br bu bc : Fin 2048 → Fin 64 → EReal) :
    Fin 2048 → Fin 64 → EReal :=
  cell (fun n j => powers A (cat X H) (fun k f => Wr k f j) n)
    (fun n j => powers A (cat X H) (fun k f => Wu k f j) n)
    (fun Z n j => powers A Z (fun k f => Wc k f j) n) X H br bu bc

/-- The cell with each convolution in Horner form against the same weights. -/
def hornerCell (X : Fin 2048 → Fin 64 → EReal) (A : Fin 2048 → Fin 2048 → EReal) (H : Fin 2048 → Fin 64 → EReal)
    (Wr Wu Wc : Fin 5 → Fin 128 → Fin 64 → EReal) (br bu bc : Fin 2048 → Fin 64 → EReal) :
    Fin 2048 → Fin 64 → EReal :=
  cell (fun n j => horner A (cat X H) (fun k f => Wr k f j) n)
    (fun n j => horner A (cat X H) (fun k f => Wu k f j) n)
    (fun Z n j => horner A Z (fun k f => Wc k f j) n) X H br bu bc

end Cert.Gru

end
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.LibUnitAxis.lean ====
/-
  Casts between a rank-2 shape `[a, b]` and the same data with a unit axis, leading `[1, a, b]` or in the middle
  `[a, 1, b]`, read at an index written by its coordinates: dropping a leading unit axis reads `(p, q)` at `(0, p, q)`,
  adding it reads `(o, p, q)` at `(p, q)`, dropping a middle unit axis reads `(p, q)` at `(p, 0, q)` — in each case the
  two indices have the same row-major position.
-/
import Idealize.ShloMosaic.Lib.ValueIdx
import Idealize.ShloMosaic.Lib.Pipeline.Value

noncomputable section

namespace Cert.LibUnitAxis

open Idealize.ShloMosaic Idealize.ShloMosaic.ValueIdx

/-- `[1, a, b]` viewed as `[a, b]`: entry `(p, q)` is entry `(0, p, q)`. -/
theorem dropUnit_ix {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h _ _ (by
    rw [Shape.rowMajor_val_three, Shape.rowMajor_val_two]
    show (0 * a + p.val) * b + q.val = p.val * b + q.val
    simp)

/-- `[a, b]` viewed as `[1, a, b]`: entry `(o, p, q)` is entry `(p, q)`. -/
theorem addUnit_ix {α : Type} {a b : Nat} (v : (⟨2, ![a, b]⟩ : Shape).Idx → α)
    (h : (⟨2, ![a, b]⟩ : Shape).ShapeCasts ⟨3, ![1, a, b]⟩) (o : Fin 1) (p : Fin a) (q : Fin b) :
    shapeCast ⟨3, ![1, a, b]⟩ v h (ix3 o p q) = v (ix2 p q) :=
  shapeCast_apply v h _ _ (by
    rw [Shape.rowMajor_val_three, Shape.rowMajor_val_two]
    show p.val * b + q.val = (o.val * a + p.val) * b + q.val
    have : o.val = 0 := by omega
    simp [this])

/-- `[a, 1, b]` viewed as `[a, b]`: entry `(p, q)` is entry `(p, 0, q)`. -/
theorem dropMid_ix {α : Type} {a b : Nat} (v : (⟨3, ![a, 1, b]⟩ : Shape).Idx → α)
    (h : (⟨3, ![a, 1, b]⟩ : Shape).ShapeCasts ⟨2, ![a, b]⟩) (p : Fin a) (q : Fin b) :
    shapeCast ⟨2, ![a, b]⟩ v h (ix2 p q) = v (ix3 p (0 : Fin 1) q) :=
  shapeCast_apply v h _ _ (by
    rw [Shape.rowMajor_val_three, Shape.rowMajor_val_two]
    show (p.val * 1 + 0) * b + q.val = p.val * b + q.val
    simp)

end Cert.LibUnitAxis

end
-- ==== Proof.KOps.lean ====
/-
  The kernel body's tile operations read at an entry.

  A loaded [1, 2048, w] block viewed as a [2048, w] tile reads entry (n, j) at (0, n, j).  Two 64-column tiles
  joined along the columns read column f < 64 from the first and column 64 + j from the second.  A tile product
  into the zero accumulator is the textbook sum over the contracted index.  A block of consecutive columns of a
  wide tile, starting at column `off`, reads column c at `off + c`.  One diffusion hop of the kernel,
  A · P + S with P rounded to the short format first (the identity on extended reals), therefore reads
  sum_m A(n, m) P(m, c) + S(n, c); four hops over the five column blocks of one wide projection Z · W are the
  Horner form of the diffusion convolution for column c, the k-th weight vector being column block k of W.
-/
import proofs.«121264_g42064909697411_cont_8to1_b_244_10_alg».proof.Proof.Gen.KernelIdeal
import proofs.«121264_g42064909697411_cont_8to1_b_244_10_alg».proof.Proof.Spec
import proofs.«121264_g42064909697411_cont_8to1_b_244_10_alg».proof.Proof.LibPlainDot
import proofs.«121264_g42064909697411_cont_8to1_b_244_10_alg».proof.Proof.LibUnitAxis
import Idealize.ShloMosaic.Lib.ValueIdx
import Idealize.ShloMosaic.Lib.Pipeline.Value
import Idealize.ShloMosaic.PureOps.Ideal.Laws

noncomputable section

open scoped BigOperators

namespace Cert.Gru.KOps

open Idealize.ShloMosaic Idealize.ShloMosaic.ValueIdx Cert.KernelIdeal Cert.KernelIdeal.Facts₀ Cert.Gru

/-! ## Columns -/

/-- Column j of the first 64 of 128. -/
def lo (j : Fin 64) : Fin 128 := ⟨j.val, by have := j.isLt; omega⟩
/-- Column j of the second 64 of 128. -/
def hi (j : Fin 64) : Fin 128 := ⟨64 + j.val, by have := j.isLt; omega⟩
/-- Column c of the k-th block of 128 among 640. -/
def colRU (k : Fin 5) (c : Fin 128) : Fin 640 := ⟨128 * k.val + c.val, by have := k.isLt; have := c.isLt; omega⟩
/-- Column j of the k-th block of 64 among 320. -/
def colC (k : Fin 5) (j : Fin 64) : Fin 320 := ⟨64 * k.val + j.val, by have := k.isLt; have := j.isLt; omega⟩

/-! ## Single operations -/

theorem drop64 (v : Vec Ideal S1x2048x64 .f32) (n : Fin 2048) (j : Fin 64) :
    (shapeCast S2048x64 v shapeCasts_S1x2048x64_S2048x64 : FVec Ideal S2048x64 .f32) (ix2 n j) = v (ix3 (0 : Fin 1) n j) :=
  Cert.LibUnitAxis.dropUnit_ix v _ n j

theorem dropA (v : Vec Ideal S1x2048x2048 .bf16) (n m : Fin 2048) :
    (shapeCast S2048x2048 v shapeCasts_S1x2048x2048_S2048x2048 : FVec Ideal S2048x2048 .bf16) (ix2 n m) = v (ix3 (0 : Fin 1) n m) :=
  Cert.LibUnitAxis.dropUnit_ix v _ n m

theorem add64 (v : FVec Ideal S2048x64 .f32) (n : Fin 2048) (j : Fin 64) :
    (shapeCast S1x2048x64 v shapeCasts_S2048x64_S1x2048x64 : FVec Ideal S1x2048x64 .f32) (ix3 (0 : Fin 1) n j) = v (ix2 n j) :=
  Cert.LibUnitAxis.addUnit_ix v _ 0 n j

theorem logistic_at {s : Shape} (v : FVec Ideal s .f32) (i : s.Idx) : (logistic v : FVec Ideal s .f32) i = Ideal.logistic (v i) := rfl

theorem tanh_at {s : Shape} (v : FVec Ideal s .f32) (i : s.Idx) : (tanh v : FVec Ideal s .f32) i = Ideal.tanh (v i) := rfl

/-- Two 64-column tiles joined along the columns. -/
theorem cat_at (X Y : FVec Ideal S2048x64 .f32) (n : Fin 2048) (f : Fin 128) :
    (concatenate S2048x128 1 [⟨S2048x64, X⟩, ⟨S2048x64, Y⟩] concatenates_S2048x64_S2048x64_S2048x128_d1 : FVec Ideal S2048x128 .f32) (ix2 n f)
      = cat (fun n j => X (ix2 n j)) (fun n j => Y (ix2 n j)) n f := by
  unfold cat
  by_cases h : f.val < 64
  · rw [dif_pos h]
    exact concatenate_pair_apply_left (1 : Fin 2) X Y concatenates_S2048x64_S2048x64_S2048x128_d1 (ix2 n f) rfl
      (ix2 n ⟨f.val, h⟩) (fun b => match b with | ⟨0, _⟩ => rfl | ⟨1, _⟩ => rfl)
  · rw [dif_neg h]
    exact concatenate_pair_apply_right (1 : Fin 2) X Y concatenates_S2048x64_S2048x64_S2048x128_d1 (ix2 n f) rfl rfl
      (ix2 n ⟨f.val - 64, by have := f.isLt; omega⟩)
      (fun b hb => match b, hb with | ⟨0, _⟩, _ => rfl | ⟨1, _⟩, hb => absurd rfl hb)
      (by show (f.val - 64) + 64 = f.val; omega)

/-- A tile product into the zero accumulator, entry (r, c). -/
theorem mm_at {M K N : Nat} {φ₁ φ₂ : FTy} (d : DotDims ⟨2, ![M, K]⟩ ⟨2, ![K, N]⟩ ⟨2, ![M, N]⟩) (hd : d = DotDims.plain M K N)
    (L : FVec Ideal ⟨2, ![M, K]⟩ φ₁) (R : FVec Ideal ⟨2, ![K, N]⟩ φ₂) (r : Fin M) (c : Fin N) :
    FloatOps.matmul d none L R (constant ⟨2, ![M, N]⟩ .f32 0x00000000#32) (ix2 r c) = ∑ k : Fin K, L (ix2 r k) * R (ix2 k c) := by
  subst hd
  rw [Idealize.ShloMosaic.PlainDot.matmul_zero_eq_mm]
  rfl

/-- Columns `off .. off + 127` of a 640-column tile, `off` the start of block k. -/
theorem sliceRU_at (off : Nat) (k : Fin 5) (hoff : off = 128 * k.val) (V : FVec Ideal S2048x640 .f32)
    (h : S2048x640.Slices ![0, off] S2048x128) (n : Fin 2048) (c : Fin 128) :
    (extractStridedSlice S2048x128 ![0, off] V h : FVec Ideal S2048x128 .f32) (ix2 n c) = V (ix2 n (colRU k c)) := by
  subst hoff
  exact extractStridedSlice_apply _ V h (ix2 n c) (ix2 n (colRU k c)) (fun a => match a with
    | ⟨0, _⟩ => by show n.val = 0 + n.val; omega
    | ⟨1, _⟩ => rfl)

/-- Columns `off .. off + 63` of a 320-column tile, `off` the start of block k. -/
theorem sliceC_at (off : Nat) (k : Fin 5) (hoff : off = 64 * k.val) (V : FVec Ideal S2048x320 .f32)
    (h : S2048x320.Slices ![0, off] S2048x64) (n : Fin 2048) (j : Fin 64) :
    (extractStridedSlice S2048x64 ![0, off] V h : FVec Ideal S2048x64 .f32) (ix2 n j) = V (ix2 n (colC k j)) := by
  subst hoff
  exact extractStridedSlice_apply _ V h (ix2 n j) (ix2 n (colC k j)) (fun a => match a with
    | ⟨0, _⟩ => by show n.val = 0 + n.val; omega
    | ⟨1, _⟩ => rfl)

theorem sliceLo_at (V : FVec Ideal S2048x128 .f32) (n : Fin 2048) (j : Fin 64) :
    (extractStridedSlice S2048x64 ![0, 0] V slices_S2048x128_o0_0_S2048x64 : FVec Ideal S2048x64 .f32) (ix2 n j) = V (ix2 n (lo j)) :=
  extractStridedSlice_apply _ V _ (ix2 n j) (ix2 n (lo j)) (fun a => match a with
    | ⟨0, _⟩ => by show n.val = 0 + n.val; omega
    | ⟨1, _⟩ => by show j.val = 0 + j.val; omega)

theorem sliceHi_at (V : FVec Ideal S2048x128 .f32) (n : Fin 2048) (j : Fin 64) :
    (extractStridedSlice S2048x64 ![0, 64] V slices_S2048x128_o0_64_S2048x64 : FVec Ideal S2048x64 .f32) (ix2 n j) = V (ix2 n (hi j)) :=
  extractStridedSlice_apply _ V _ (ix2 n j) (ix2 n (hi j)) (fun a => match a with
    | ⟨0, _⟩ => by show n.val = 0 + n.val; omega
    | ⟨1, _⟩ => rfl)

/-! ## The stages of one batch, as the kernel composes them -/

/-- (X | Y) rounded to the short format: X a loaded block, Y a tile. -/
def vXH (X : Vec Ideal S1x2048x64 .f32) (Y : FVec Ideal S2048x64 .f32) : FVec Ideal S2048x128 .bf16 :=
  truncf .bf16 (concatenate S2048x128 1 [⟨S2048x64, shapeCast S2048x64 X shapeCasts_S1x2048x64_S2048x64⟩, ⟨S2048x64, Y⟩]
    concatenates_S2048x64_S2048x64_S2048x128_d1) bitsLt_bf16_f32

theorem vXH_at (X : Vec Ideal S1x2048x64 .f32) (Y : FVec Ideal S2048x64 .f32) (n : Fin 2048) (f : Fin 128) :
    vXH X Y (ix2 n f) = cat (fun n j => X (ix3 (0 : Fin 1) n j)) (fun n j => Y (ix2 n j)) n f := by
  unfold vXH
  rw [truncf_apply, cat_at]
  simp only [drop64]

/-- The wide projection for the two gates: Z · W, all five hops' columns at once. -/
def vProjRU (Z : FVec Ideal S2048x128 .bf16) (W : Vec Ideal S128x640 .bf16) : FVec Ideal S2048x640 .f32 :=
  matmul dot_S2048x128_S128x640_S2048x640_1_0_0_1_n_n none Z (shapeCast S128x640 W shapeCasts_S128x640_S128x640 : FVec Ideal S128x640 .bf16)
    (constant S2048x640 .f32 0x00000000#32)

theorem vProjRU_at (Z : FVec Ideal S2048x128 .bf16) (W : Vec Ideal S128x640 .bf16) (n : Fin 2048) (col : Fin 640) :
    vProjRU Z W (ix2 n col) = pv (fun n f => Z (ix2 n f)) (fun f => W (ix2 f col)) n := by
  unfold vProjRU pv
  rw [shapeCast_self]
  exact mm_at dot_S2048x128_S128x640_S2048x640_1_0_0_1_n_n rfl Z W n col

/-- The wide projection for the candidate. -/
def vProjC (Z : FVec Ideal S2048x128 .bf16) (W : Vec Ideal S128x320 .bf16) : FVec Ideal S2048x320 .f32 :=
  matmul dot_S2048x128_S128x320_S2048x320_1_0_0_1_n_n none Z (shapeCast S128x320 W shapeCasts_S128x320_S128x320 : FVec Ideal S128x320 .bf16)
    (constant S2048x320 .f32 0x00000000#32)

theorem vProjC_at (Z : FVec Ideal S2048x128 .bf16) (W : Vec Ideal S128x320 .bf16) (n : Fin 2048) (col : Fin 320) :
    vProjC Z W (ix2 n col) = pv (fun n f => Z (ix2 n f)) (fun f => W (ix2 f col)) n := by
  unfold vProjC pv
  rw [shapeCast_self]
  exact mm_at dot_S2048x128_S128x320_S2048x320_1_0_0_1_n_n rfl Z W n col

/-- One hop on a 128-column tile: A · P + S. -/
def vHop128 (A : Vec Ideal S1x2048x2048 .bf16) (P S : FVec Ideal S2048x128 .f32) : FVec Ideal S2048x128 .f32 :=
  addf (matmul dot_S2048x2048_S2048x128_S2048x128_1_0_0_1_n_n none (shapeCast S2048x2048 A shapeCasts_S1x2048x2048_S2048x2048 : FVec Ideal S2048x2048 .bf16)
    (truncf .bf16 P bitsLt_bf16_f32) (constant S2048x128 .f32 0x00000000#32)) S

theorem vHop128_at (A : Vec Ideal S1x2048x2048 .bf16) (P S : FVec Ideal S2048x128 .f32) (n : Fin 2048) (c : Fin 128) :
    vHop128 A P S (ix2 n c) = av (fun n m => A (ix3 (0 : Fin 1) n m)) (fun m => P (ix2 m c)) n + S (ix2 n c) := by
  unfold vHop128 av
  rw [addf_apply]
  refine congrArg (· + S (ix2 n c)) ?_
  refine (mm_at dot_S2048x2048_S2048x128_S2048x128_1_0_0_1_n_n rfl _ _ n c).trans ?_
  simp only [dropA, truncf_apply]

/-- One hop on a 64-column tile. -/
def vHop64 (A : Vec Ideal S1x2048x2048 .bf16) (P S : FVec Ideal S2048x64 .f32) : FVec Ideal S2048x64 .f32 :=
  addf (matmul dot_S2048x2048_S2048x64_S2048x64_1_0_0_1_n_n none (shapeCast S2048x2048 A shapeCasts_S1x2048x2048_S2048x2048 : FVec Ideal S2048x2048 .bf16)
    (truncf .bf16 P bitsLt_bf16_f32) (constant S2048x64 .f32 0x00000000#32)) S

theorem vHop64_at (A : Vec Ideal S1x2048x2048 .bf16) (P S : FVec Ideal S2048x64 .f32) (n : Fin 2048) (j : Fin 64) :
    vHop64 A P S (ix2 n j) = av (fun n m => A (ix3 (0 : Fin 1) n m)) (fun m => P (ix2 m j)) n + S (ix2 n j) := by
  unfold vHop64 av
  rw [addf_apply]
  refine congrArg (· + S (ix2 n j)) ?_
  refine (mm_at dot_S2048x2048_S2048x64_S2048x64_1_0_0_1_n_n rfl _ _ n j).trans ?_
  simp only [dropA, truncf_apply]

/-- Four hops over the five column blocks of the gates' projection. -/
def vChainRU (A : Vec Ideal S1x2048x2048 .bf16) (Pall : FVec Ideal S2048x640 .f32) : FVec Ideal S2048x128 .f32 :=
  vHop128 A (vHop128 A (vHop128 A (vHop128 A
      (extractStridedSlice S2048x128 ![0, 512] Pall slices_S2048x640_o0_512_S2048x128)
      (extractStridedSlice S2048x128 ![0, 384] Pall slices_S2048x640_o0_384_S2048x128))
      (extractStridedSlice S2048x128 ![0, 256] Pall slices_S2048x640_o0_256_S2048x128))
      (extractStridedSlice S2048x128 ![0, 128] Pall slices_S2048x640_o0_128_S2048x128))
      (extractStridedSlice S2048x128 ![0, 0] Pall slices_S2048x640_o0_0_S2048x128)

theorem vChainRU_at (A : Vec Ideal S1x2048x2048 .bf16) (Z : FVec Ideal S2048x128 .bf16) (W : Vec Ideal S128x640 .bf16)
    (n : Fin 2048) (c : Fin 128) :
    vChainRU A (vProjRU Z W) (ix2 n c)
      = horner (fun n m => A (ix3 (0 : Fin 1) n m)) (fun n f => Z (ix2 n f)) (fun k f => W (ix2 f (colRU k c))) n := by
  unfold vChainRU horner
  simp only [vHop128_at, sliceRU_at 512 4 rfl, sliceRU_at 384 3 rfl, sliceRU_at 256 2 rfl, sliceRU_at 128 1 rfl,
    sliceRU_at 0 0 rfl, vProjRU_at]

/-- Four hops over the five column blocks of the candidate's projection. -/
def vChainC (A : Vec Ideal S1x2048x2048 .bf16) (Qall : FVec Ideal S2048x320 .f32) : FVec Ideal S2048x64 .f32 :=
  vHop64 A (vHop64 A (vHop64 A (vHop64 A
      (extractStridedSlice S2048x64 ![0, 256] Qall slices_S2048x320_o0_256_S2048x64)
      (extractStridedSlice S2048x64 ![0, 192] Qall slices_S2048x320_o0_192_S2048x64))
      (extractStridedSlice S2048x64 ![0, 128] Qall slices_S2048x320_o0_128_S2048x64))
      (extractStridedSlice S2048x64 ![0, 64] Qall slices_S2048x320_o0_64_S2048x64))
      (extractStridedSlice S2048x64 ![0, 0] Qall slices_S2048x320_o0_0_S2048x64)

theorem vChainC_at (A : Vec Ideal S1x2048x2048 .bf16) (Z : FVec Ideal S2048x128 .bf16) (W : Vec Ideal S128x320 .bf16)
    (n : Fin 2048) (j : Fin 64) :
    vChainC A (vProjC Z W) (ix2 n j)
      = horner (fun n m => A (ix3 (0 : Fin 1) n m)) (fun n f => Z (ix2 n f)) (fun k f => W (ix2 f (colC k j))) n := by
  unfold vChainC horner
  simp only [vHop64_at, sliceC_at 256 4 rfl, sliceC_at 192 3 rfl, sliceC_at 128 2 rfl, sliceC_at 64 1 rfl,
    sliceC_at 0 0 rfl, vProjC_at]

end Cert.Gru.KOps

end
-- ==== Proof.LibIdealReads.lean ====
/-
  Small facts about arrays of extended reals, read at an index or as whole arrays.

  The host's quotient entry by entry; a change of float format as the
  identity on whole arrays; the single-precision word of one; and the quotient by a nonzero divisor as the product
  with the divisor's reciprocal, which holds on every extended real (at the infinities too) because the quotient
  x / d is by definition x · d⁻¹ whenever d ≠ 0.  In particular dividing by max (d, 1) is multiplying by
  1 / max (d, 1), with nothing assumed finite.
-/
import Idealize.ShloMosaic.PureOps.Ideal.Laws
import Idealize.ShloMosaic.Lib.ValueIdx
import Idealize.ShloMosaic.Lib.Pipeline.Value

noncomputable section

namespace Cert.Lib.IdealReads

open Idealize.ShloMosaic Idealize.ShloMosaic.ValueIdx

/-- The host's quotient of two arrays at an index is the quotient of the entries. -/
theorem hostDivf_apply {s : Shape} {φ : FTy} (x y : FVec Ideal s φ) (i : s.Idx) : Host.divf x y i = Ideal.div (x i) (y i) := rfl

/-- Rounding an array to a shorter float format is the identity on extended reals. -/
theorem truncf_id {s : Shape} {φ ψ : FTy} (a : FVec Ideal s φ) (h : ψ.bits < φ.bits) : (truncf ψ a h : FVec Ideal s ψ) = a := rfl

/-- Widening an array to a longer float format is the identity on extended reals. -/
theorem extf_id {s : Shape} {φ ψ : FTy} (a : FVec Ideal s φ) (h : φ.bits < ψ.bits) : (extf ψ a h : FVec Ideal s ψ) = a := rfl

/-- The single-precision word 0x3F800000 denotes the real number one. -/
theorem ofBits_one_f32 : Ideal.ofBits .f32 0x3F800000#32 = 1 := by
  simp [Ideal.ofBits, Ideal.ieee, -EReal.coe_mul]
  norm_num

/-- The quotient by a nonzero divisor is the product with the divisor's reciprocal, on every extended real. -/
theorem div_eq_mul_div_one (x : EReal) {d : EReal} (h : d ≠ 0) : Ideal.div x d = x * Ideal.div 1 d := by
  rw [Ideal.div, if_neg h, Ideal.div, if_neg h, one_mul]

/-- A maximum with one is not zero. -/
theorem max_one_ne_zero (d : EReal) : max d 1 ≠ 0 :=
  (lt_of_lt_of_le zero_lt_one (le_max_right d 1)).ne'

/-- Dividing by max (d, 1) is multiplying by its reciprocal, on every extended real. -/
theorem div_max_one (x d : EReal) : Ideal.div x (max d 1) = x * Ideal.div 1 (max d 1) :=
  div_eq_mul_div_one x (max_one_ne_zero d)

end Cert.Lib.IdealReads

end
-- ==== Proof.KCell.lean ====
/-
  One batch of the kernel: the whole cell as a composition of the tile stages, and its value at an entry.

  The kernel computes, per batch, the two gates from ONE Horner chain on 128-column tiles (columns 0..63 the
  reset gate's, 64..127 the update gate's), then the candidate from a Horner chain on 64-column tiles over
  (X | r * H), and stores  u * H + (1 - u) * tanh(candidate convolution + bias).  Read at entry (n, j) this is
  the specification's cell with every convolution in Horner form, the k-th weight vector of each convolution being
  a column of the k-th column block of a packed weight array.

  The two batches are stored through two rectangles of the output block, batch 0 at leading coordinate 0 and
  batch 1 at leading coordinate 1; each loads its own slab of A, X and H through the rectangle with the same
  leading coordinate.
-/
import proofs.«121264_g42064909697411_cont_8to1_b_244_10_alg».proof.Proof.KOps
import proofs.«121264_g42064909697411_cont_8to1_b_244_10_alg».proof.Proof.Gen.KernelIdeal.Frame
import proofs.«121264_g42064909697411_cont_8to1_b_244_10_alg».proof.Proof.LibIdealReads

set_option maxRecDepth 16384

noncomputable section

open scoped BigOperators

namespace Cert.Gru.KCell

open Idealize.ShloMosaic Idealize.ShloMosaic.ValueIdx Cert.KernelIdeal Cert.KernelIdeal.Facts₀
open Cert.Gru Cert.Gru.KOps

/-- One batch's new state as a [2048, 64] tile, from the batch's loaded blocks of A, X, H, the packed weights and
    the biases: the kernel body's operations in its order. -/
def cellV (A : Vec Ideal S1x2048x2048 .bf16) (X H : Vec Ideal S1x2048x64 .f32) (Wru : Vec Ideal S128x640 .bf16)
    (Wc : Vec Ideal S128x320 .bf16) (br bu bc : Vec Ideal S2048x64 .f32) : FVec Ideal S2048x64 .f32 :=
  let Hs : FVec Ideal S2048x64 .f32 := shapeCast S2048x64 H shapeCasts_S1x2048x64_S2048x64
  let P0 : FVec Ideal S2048x128 .f32 := vChainRU A (vProjRU (vXH X Hs) Wru)
  let gr : FVec Ideal S2048x64 .f32 := logistic (addf (extractStridedSlice S2048x64 ![0, 0] P0 slices_S2048x128_o0_0_S2048x64) br)
  let gu : FVec Ideal S2048x64 .f32 := logistic (addf (extractStridedSlice S2048x64 ![0, 64] P0 slices_S2048x128_o0_64_S2048x64) bu)
  let Q0 : FVec Ideal S2048x64 .f32 := vChainC A (vProjC (vXH X (mulf gr Hs)) Wc)
  addf (mulf gu Hs) (mulf (subf (broadcast S2048x64 (Scalar.ofBits .f32 0x3F800000#32)) gu) (tanh (addf Q0 bc)))

/-- The cell in Horner form over a batch's blocks, the weight vectors read out of the packed arrays. -/
def kcell (A : Vec Ideal S1x2048x2048 .bf16) (X H : Vec Ideal S1x2048x64 .f32) (Wru : Vec Ideal S128x640 .bf16)
    (Wc : Vec Ideal S128x320 .bf16) (br bu bc : Vec Ideal S2048x64 .f32) : Fin 2048 → Fin 64 → EReal :=
  cell
    (fun n j => horner (fun n m => A (ix3 (0 : Fin 1) n m))
      (cat (fun n j => X (ix3 (0 : Fin 1) n j)) (fun n j => H (ix3 (0 : Fin 1) n j))) (fun k f => Wru (ix2 f (colRU k (lo j)))) n)
    (fun n j => horner (fun n m => A (ix3 (0 : Fin 1) n m))
      (cat (fun n j => X (ix3 (0 : Fin 1) n j)) (fun n j => H (ix3 (0 : Fin 1) n j))) (fun k f => Wru (ix2 f (colRU k (hi j)))) n)
    (fun Z n j => horner (fun n m => A (ix3 (0 : Fin 1) n m)) Z (fun k f => Wc (ix2 f (colC k j))) n)
    (fun n j => X (ix3 (0 : Fin 1) n j)) (fun n j => H (ix3 (0 : Fin 1) n j))
    (fun n j => br (ix2 n j)) (fun n j => bu (ix2 n j)) (fun n j => bc (ix2 n j))

theorem cellV_at (A : Vec Ideal S1x2048x2048 .bf16) (X H : Vec Ideal S1x2048x64 .f32) (Wru : Vec Ideal S128x640 .bf16)
    (Wc : Vec Ideal S128x320 .bf16) (br bu bc : Vec Ideal S2048x64 .f32) (n : Fin 2048) (j : Fin 64) :
    cellV A X H Wru Wc br bu bc (ix2 n j) = kcell A X H Wru Wc br bu bc n j := by
  unfold cellV kcell cell
  simp only [addf_apply, mulf_apply, subf_apply, broadcast_apply, logistic_at, tanh_at, sliceLo_at, sliceHi_at,
    vChainRU_at, vChainC_at, vXH_at, drop64]
  rw [show (Scalar.ofBits .f32 0x3F800000#32 : Ideal .f32) = 1 from Cert.Lib.IdealReads.ofBits_one_f32]

set_option maxHeartbeats 2000000 in
/-- What the body leaves in the output block: the two batches' cells, each through its rectangle. -/
theorem out0_8_eq (x0 : Vec Ideal S2x2048x2048 .bf16) (x1 x2 : Vec Ideal S2x2048x64 .f32) (x3 : Vec Ideal S128x640 .bf16)
    (x4 : Vec Ideal S128x320 .bf16) (x5 x6 x7 : Vec Ideal S2048x64 .f32) :
    Gen.out0_8 x0 x1 x2 x3 x4 x5 x6 x7
      = View.canon [⟨Gen.r0_1, (shapeCast S1x2048x64 (cellV (View.ld x0 Gen.r0_4) (View.ld x1 Gen.r0_1) (View.ld x2 Gen.r0_1) (View.ld x3 Gen.r0_2)
            (View.ld x4 Gen.r0_6) (View.ld x5 Gen.r0_5) (View.ld x6 Gen.r0_5) (View.ld x7 Gen.r0_5)) shapeCasts_S2048x64_S1x2048x64 : FVec Ideal S1x2048x64 .f32)⟩,
          ⟨Gen.r0_0, (shapeCast S1x2048x64 (cellV (View.ld x0 Gen.r0_3) (View.ld x1 Gen.r0_0) (View.ld x2 Gen.r0_0) (View.ld x3 Gen.r0_2)
            (View.ld x4 Gen.r0_6) (View.ld x5 Gen.r0_5) (View.ld x6 Gen.r0_5) (View.ld x7 Gen.r0_5)) shapeCasts_S2048x64_S1x2048x64 : FVec Ideal S1x2048x64 .f32)⟩] := by
  unfold Gen.out0_8 Gen.k0_pay1 Gen.k0_pay15 Gen.k0_pay16 Gen.k0_pay17 Gen.k0_pay13 Gen.k0_pay14 Gen.k0_pay11 Gen.k0_pay12
    Gen.k0_pay9 Gen.k0_pay10 Gen.k0_pay8 Gen.k0_pay6 Gen.k0_pay7 Gen.k0_pay4 Gen.k0_pay5 Gen.k0_pay2 Gen.k0_pay3
    cellV vChainRU vChainC vHop128 vHop64 vProjRU vProjC vXH
  rfl

end Cert.Gru.KCell

end
-- ==== Proof.HostGlue.lean ====
/-
  The arrays the host prepares for the cell, entry by entry.

  Before the cell runs, the host re-lays three of the inputs.  The node matrix A only changes float format,
  which on the extended reals is the identity.  The reset and update weights W_r, W_u (each 5 x 128 x 64) are put
  side by side along the last axis (5 x 128 x 128), the first two axes are swapped (128 x 5 x 128) and the last two
  merged (128 x 640): entry (f, 128 k + c) of the result is W_r[k, f, c] for c < 64 and W_u[k, f, c - 64] for
  c >= 64.  The candidate weights W_c (5 x 128 x 64) get their first two axes swapped (128 x 5 x 64) and the last
  two merged (128 x 320): entry (f, 64 k + j) is W_c[k, f, j].  Each statement follows by reading the operations
  at an index: a reshape keeps the row-major position, a transpose permutes the coordinates, and a two-piece
  concatenation reads the piece in which the coordinate along the axis falls.  All of it holds for every extended
  real; nothing is assumed finite.
-/
import proofs.«121264_g42064909697411_cont_8to1_b_244_10_alg».proof.Proof.Gen.KernelIdeal.Frame
import Idealize.ShloMosaic.Lib.Pipeline.Value
import Idealize.ShloMosaic.Lib.ValueIdx
import Idealize.ShloMosaic.Lib.StableHlo.Run

noncomputable section

namespace Cert.Gru.HostGlue

open Idealize.ShloMosaic Idealize.ShloMosaic.ValueIdx Idealize.ShloMosaic.StableHlo Idealize.ShloMosaic.TcCoe Idealize.SL.Sem Cert.KernelIdeal Cert.KernelIdeal.Gen

variable (m : (ℓ : Loc nD τ sig) → Buf (Elt Ideal) ℓ) (c : Dev nD)

/-- The array the region finds in place of the node matrix is the node matrix: a change of float format is the
    identity on the extended reals. -/
theorem a16_eq : (V m c main_call0_v0 : S2x2048x2048.Idx → EReal) = m ((c : Thread nD τ).loc main_arg1) := by
  dsimp only [V, hostOps0]
  after_results
  rfl

/-- The packed reset/update weights as one term: the two weight arrays side by side along the last axis
    ([5,128,128]), the first two axes swapped ([128,5,128]), the last two axes merged ([128,640]). -/
theorem v4_eq : (V m c main_call0_v4 : S128x640.Idx → EReal)
    = shapeCast S128x640 (transpose S128x5x128 [1, 0, 2]
        (concatenate S5x128x128 2 [⟨S5x128x64, (m ((c : Thread nD τ).loc main_arg3) : S5x128x64.Idx → EReal)⟩,
          ⟨S5x128x64, (m ((c : Thread nD τ).loc main_arg4) : S5x128x64.Idx → EReal)⟩]
          concatenates_S5x128x64_S5x128x64_S5x128x128_d2)
        transposes_S5x128x128_S128x5x128_1_0_2) shapeCasts_S128x5x128_S128x640 := by
  dsimp only [V, hostOps0]
  after_results
  rfl

/-- The packed candidate weights as one term: the weight array with its first two axes swapped ([128,5,64]),
    the last two axes merged ([128,320]). -/
theorem v7_eq : (V m c main_call0_v7 : S128x320.Idx → EReal)
    = shapeCast S128x320 (transpose S128x5x64 [1, 0, 2]
        (m ((c : Thread nD τ).loc main_arg5) : S5x128x64.Idx → EReal)
        transposes_S5x128x64_S128x5x64_1_0_2) shapeCasts_S128x5x64_S128x320 := by
  dsimp only [V, hostOps0]
  after_results
  rfl

/-- Entry (f, 128 k + j), j < 64, of the packed reset/update weights is the reset weight W_r[k, f, j]:
    row-major position f · 640 + 128 k + j is ((f · 5 + k) · 128 + j), the swap of the first two axes takes
    (f, k, j) to (k, f, j), and column j < 64 lies in the first of the two pieces. -/
theorem wru_lo (f : Fin 128) (k : Fin 5) (j : Fin 64) :
    (V m c main_call0_v4 : S128x640.Idx → EReal) (ix2 f (⟨128 * k.val + j.val, by omega⟩ : Fin 640))
      = (m ((c : Thread nD τ).loc main_arg3) : S5x128x64.Idx → EReal) (ix3 k f j) := by
  rw [v4_eq]
  refine (shapeCast_apply _ _ _ (ix3 f k (⟨j.val, by omega⟩ : Fin 128) : S128x5x128.Idx) ?_).trans ?_
  · rw [Shape.rowMajor_val_three, Shape.rowMajor_val_two]
    show (f.val * 5 + k.val) * 128 + j.val = f.val * 640 + (128 * k.val + j.val)
    omega
  refine (transpose_apply _ _ _ _ (ix3 k f (⟨j.val, by omega⟩ : Fin 128) : S5x128x128.Idx) ?_).trans ?_
  · intro b
    match b with
    | ⟨0, _⟩ => rfl
    | ⟨1, _⟩ => rfl
    | ⟨2, _⟩ => rfl
  refine concatenate_pair_apply_left (t := S5x128x128) (s₁ := S5x128x64) (s₂ := S5x128x64) 2 _ _ _ _
    (rfl : S5x128x64.rank = S5x128x128.rank) (ix3 k f j) ?_
  intro b
  match b with
  | ⟨0, _⟩ => rfl
  | ⟨1, _⟩ => rfl
  | ⟨2, _⟩ => rfl

/-- Entry (f, 128 k + 64 + j), j < 64, of the packed reset/update weights is the update weight W_u[k, f, j]:
    as above, and column 64 + j lies in the second piece at its column j. -/
theorem wru_hi (f : Fin 128) (k : Fin 5) (j : Fin 64) :
    (V m c main_call0_v4 : S128x640.Idx → EReal) (ix2 f (⟨128 * k.val + (64 + j.val), by omega⟩ : Fin 640))
      = (m ((c : Thread nD τ).loc main_arg4) : S5x128x64.Idx → EReal) (ix3 k f j) := by
  rw [v4_eq]
  refine (shapeCast_apply _ _ _ (ix3 f k (⟨64 + j.val, by omega⟩ : Fin 128) : S128x5x128.Idx) ?_).trans ?_
  · rw [Shape.rowMajor_val_three, Shape.rowMajor_val_two]
    show (f.val * 5 + k.val) * 128 + (64 + j.val) = f.val * 640 + (128 * k.val + (64 + j.val))
    omega
  refine (transpose_apply _ _ _ _ (ix3 k f (⟨64 + j.val, by omega⟩ : Fin 128) : S5x128x128.Idx) ?_).trans ?_
  · intro b
    match b with
    | ⟨0, _⟩ => rfl
    | ⟨1, _⟩ => rfl
    | ⟨2, _⟩ => rfl
  refine concatenate_pair_apply_right (t := S5x128x128) (s₁ := S5x128x64) (s₂ := S5x128x64) 2 _ _ _ _
    (rfl : S5x128x64.rank = S5x128x128.rank) (rfl : S5x128x64.rank = S5x128x128.rank) (ix3 k f j) ?_ ?_
  · intro b hb
    match b, hb with
    | ⟨0, _⟩, _ => rfl
    | ⟨1, _⟩, _ => rfl
    | ⟨2, _⟩, hb => exact absurd rfl hb
  · show j.val + 64 = 64 + j.val
    omega

/-- Entry (f, 64 k + j) of the packed candidate weights is W_c[k, f, j]: row-major position f · 320 + 64 k + j is
    ((f · 5 + k) · 64 + j), and the swap of the first two axes takes (f, k, j) to (k, f, j). -/
theorem wc_at (f : Fin 128) (k : Fin 5) (j : Fin 64) :
    (V m c main_call0_v7 : S128x320.Idx → EReal) (ix2 f (⟨64 * k.val + j.val, by omega⟩ : Fin 320))
      = (m ((c : Thread nD τ).loc main_arg5) : S5x128x64.Idx → EReal) (ix3 k f j) := by
  rw [v7_eq]
  refine (shapeCast_apply _ _ _ (ix3 f k j : S128x5x64.Idx) ?_).trans ?_
  · rw [Shape.rowMajor_val_three, Shape.rowMajor_val_two]
    show (f.val * 5 + k.val) * 64 + j.val = f.val * 320 + (64 * k.val + j.val)
    omega
  refine transpose_apply _ _ _ _ (ix3 k f j : S5x128x64.Idx) ?_
  intro b
  match b with
  | ⟨0, _⟩ => rfl
  | ⟨1, _⟩ => rfl
  | ⟨2, _⟩ => rfl

end Cert.Gru.HostGlue

end
-- ==== Proof.KValue.lean ====
/-
  The kernel's result array as one function of the argument arrays.

  The kernel has one grid point and every window's block is its whole array, so what the body leaves in the
  output block IS the output array: at (b, n, j) batch b's cell in Horner form, its node matrix, features and
  state the batch-b slabs of the arrays the region finds, its weight vectors columns of the packed weight arrays.
  The packed arrays are re-laid copies of the weight arguments, so the result is the specification's Horner cell
  of the arguments themselves.
-/
import proofs.«121264_g42064909697411_cont_8to1_b_244_10_alg».proof.Proof.KCell
import proofs.«121264_g42064909697411_cont_8to1_b_244_10_alg».proof.Proof.HostGlue
import proofs.«121264_g42064909697411_cont_8to1_b_244_10_alg».proof.Proof.Gen.KernelIdeal.Value

set_option maxRecDepth 16384

noncomputable section

open scoped BigOperators

namespace Cert.Gru.KValue

open Idealize.ShloMosaic Idealize.ShloMosaic.ValueIdx Idealize.ShloMosaic.TcCoe Idealize.SL.Sem Cert.KernelIdeal
open Idealize.ShloMosaic.Pipeline (Dat)
open Cert.Gru Cert.Gru.KOps Cert.Gru.KCell

/-! ## The body's rectangles: a batch's slab sits at its leading coordinate, the other arrays are read whole -/

theorem idx64_0 (n : Fin 2048) (j : Fin 64) : (Gen.r0_0 : Rect S2x2048x64).idx (ix3 (0 : Fin 1) n j) = ix3 (0 : Fin 2) n j := by
  funext a; apply Fin.ext
  match a with
  | ⟨0, _⟩ => rfl
  | ⟨1, _⟩ => show 0 + 1 * n.val = n.val; omega
  | ⟨2, _⟩ => show 0 + 1 * j.val = j.val; omega

theorem idx64_1 (n : Fin 2048) (j : Fin 64) : (Gen.r0_1 : Rect S2x2048x64).idx (ix3 (0 : Fin 1) n j) = ix3 (1 : Fin 2) n j := by
  funext a; apply Fin.ext
  match a with
  | ⟨0, _⟩ => rfl
  | ⟨1, _⟩ => show 0 + 1 * n.val = n.val; omega
  | ⟨2, _⟩ => show 0 + 1 * j.val = j.val; omega

theorem idxA_0 (n k : Fin 2048) : (Gen.r0_3 : Rect S2x2048x2048).idx (ix3 (0 : Fin 1) n k) = ix3 (0 : Fin 2) n k := by
  funext a; apply Fin.ext
  match a with
  | ⟨0, _⟩ => rfl
  | ⟨1, _⟩ => show 0 + 1 * n.val = n.val; omega
  | ⟨2, _⟩ => show 0 + 1 * k.val = k.val; omega

theorem idxA_1 (n k : Fin 2048) : (Gen.r0_4 : Rect S2x2048x2048).idx (ix3 (0 : Fin 1) n k) = ix3 (1 : Fin 2) n k := by
  funext a; apply Fin.ext
  match a with
  | ⟨0, _⟩ => rfl
  | ⟨1, _⟩ => show 0 + 1 * n.val = n.val; omega
  | ⟨2, _⟩ => show 0 + 1 * k.val = k.val; omega

theorem idx640 (f : Fin 128) (col : Fin 640) : (Gen.r0_2 : Rect S128x640).idx (ix2 f col) = ix2 f col := by
  funext a; apply Fin.ext
  match a with
  | ⟨0, _⟩ => show 0 + 1 * f.val = f.val; omega
  | ⟨1, _⟩ => show 0 + 1 * col.val = col.val; omega

theorem idx320 (f : Fin 128) (col : Fin 320) : (Gen.r0_6 : Rect S128x320).idx (ix2 f col) = ix2 f col := by
  funext a; apply Fin.ext
  match a with
  | ⟨0, _⟩ => show 0 + 1 * f.val = f.val; omega
  | ⟨1, _⟩ => show 0 + 1 * col.val = col.val; omega

theorem idx64z (n : Fin 2048) (j : Fin 64) : (Gen.r0_5 : Rect S2048x64).idx (ix2 n j) = ix2 n j := by
  funext a; apply Fin.ext
  match a with
  | ⟨0, _⟩ => show 0 + 1 * n.val = n.val; omega
  | ⟨1, _⟩ => show 0 + 1 * j.val = j.val; omega

/-! ## The output block at an entry -/

/-- Batch b's cell in Horner form over the whole blocks. -/
def kcellB (x0 : Vec Ideal S2x2048x2048 .bf16) (x1 x2 : Vec Ideal S2x2048x64 .f32) (x3 : Vec Ideal S128x640 .bf16)
    (x4 : Vec Ideal S128x320 .bf16) (x5 x6 x7 : Vec Ideal S2048x64 .f32) (b : Fin 2) : Fin 2048 → Fin 64 → EReal :=
  cell
    (fun n j => horner (fun n k => x0 (ix3 b n k)) (cat (fun n j => x1 (ix3 b n j)) (fun n j => x2 (ix3 b n j)))
      (fun k f => x3 (ix2 f (colRU k (lo j)))) n)
    (fun n j => horner (fun n k => x0 (ix3 b n k)) (cat (fun n j => x1 (ix3 b n j)) (fun n j => x2 (ix3 b n j)))
      (fun k f => x3 (ix2 f (colRU k (hi j)))) n)
    (fun Z n j => horner (fun n k => x0 (ix3 b n k)) Z (fun k f => x4 (ix2 f (colC k j))) n)
    (fun n j => x1 (ix3 b n j)) (fun n j => x2 (ix3 b n j))
    (fun n j => x5 (ix2 n j)) (fun n j => x6 (ix2 n j)) (fun n j => x7 (ix2 n j))

theorem out0_8_at1 (x0 : Vec Ideal S2x2048x2048 .bf16) (x1 x2 : Vec Ideal S2x2048x64 .f32) (x3 : Vec Ideal S128x640 .bf16)
    (x4 : Vec Ideal S128x320 .bf16) (x5 x6 x7 : Vec Ideal S2048x64 .f32) (n : Fin 2048) (j : Fin 64) :
    Gen.out0_8 x0 x1 x2 x3 x4 x5 x6 x7 (ix3 (1 : Fin 2) n j) = kcellB x0 x1 x2 x3 x4 x5 x6 x7 1 n j := by
  rw [out0_8_eq]
  refine ((congrArg _ (idx64_1 n j).symm).trans (View.canon_cons_emb Gen.r0_1 _ _ (ix3 (0 : Fin 1) n j))).trans ?_
  rw [add64, cellV_at]
  unfold kcell kcellB
  simp only [View.ld, idxA_1, idx64_1, idx640, idx320, idx64z]

/-- Batch 0's entries lie outside batch 1's rectangle. -/
theorem not_mem_r1 (n : Fin 2048) (j : Fin 64) : (ix3 (0 : Fin 2) n j : S2x2048x64.Idx) ∉ (Gen.r0_1 : Rect S2x2048x64).set := by
  rw [Rect.mem_set_unit]
  intro h
  have h0 : (1 : Nat) ≤ 0 := (h 0).1
  omega

/-- So at a batch-0 entry the two stores read as the batch-0 store alone. -/
theorem canon_batch0 (w1 w0 : FVec Ideal S1x2048x64 .f32) (n : Fin 2048) (j : Fin 64) :
    View.canon [(⟨Gen.r0_1, w1⟩ : View.Piece (Elt Ideal) S2x2048x64 .f32), ⟨Gen.r0_0, w0⟩] (ix3 (0 : Fin 2) n j)
      = View.canon [(⟨Gen.r0_0, w0⟩ : View.Piece (Elt Ideal) S2x2048x64 .f32)] (ix3 (0 : Fin 2) n j) :=
  View.canon_cons_of_not_mem _ _ (not_mem_r1 n j)

theorem out0_8_at0 (x0 : Vec Ideal S2x2048x2048 .bf16) (x1 x2 : Vec Ideal S2x2048x64 .f32) (x3 : Vec Ideal S128x640 .bf16)
    (x4 : Vec Ideal S128x320 .bf16) (x5 x6 x7 : Vec Ideal S2048x64 .f32) (n : Fin 2048) (j : Fin 64) :
    Gen.out0_8 x0 x1 x2 x3 x4 x5 x6 x7 (ix3 (0 : Fin 2) n j) = kcellB x0 x1 x2 x3 x4 x5 x6 x7 0 n j := by
  rw [out0_8_eq]
  refine (canon_batch0 _ _ n j).trans ?_
  refine ((congrArg _ (idx64_0 n j).symm).trans (View.canon_cons_emb Gen.r0_0 _ _ (ix3 (0 : Fin 1) n j))).trans ?_
  rw [add64, cellV_at]
  unfold kcell kcellB
  simp only [View.ld, idxA_0, idx64_0, idx640, idx320, idx64z]

theorem out0_8_at (x0 : Vec Ideal S2x2048x2048 .bf16) (x1 x2 : Vec Ideal S2x2048x64 .f32) (x3 : Vec Ideal S128x640 .bf16)
    (x4 : Vec Ideal S128x320 .bf16) (x5 x6 x7 : Vec Ideal S2048x64 .f32) (b : Fin 2) (n : Fin 2048) (j : Fin 64) :
    Gen.out0_8 x0 x1 x2 x3 x4 x5 x6 x7 (ix3 b n j) = kcellB x0 x1 x2 x3 x4 x5 x6 x7 b n j := by
  match b with
  | ⟨0, _⟩ => exact out0_8_at0 x0 x1 x2 x3 x4 x5 x6 x7 n j
  | ⟨1, _⟩ => exact out0_8_at1 x0 x1 x2 x3 x4 x5 x6 x7 n j

/-! ## Every window's block is its whole array -/

variable (m : (ℓ : Loc nD τ sig) → Buf (Elt Ideal) ℓ) (ρ : Dev nD → PrngReg)

theorem idxw0 : ∀ t : Fin cfg0.N, win0_0.index t (0 : Fin 3) = 0 ∧ win0_0.index t (1 : Fin 3) = 0 ∧ win0_0.index t (2 : Fin 3) = 0 :=
  (by decide +kernel : ∀ t : Fin grid0.N, _)

/-- Window 0's one block is its whole array. -/
theorem iblk0 (c : Dev nD) (t : Fin cfg0.N) : Gen.iblk m c 0 t = (Gen.V m c main_call0_v0 : S2x2048x2048.Idx → EReal) := by
  obtain ⟨e0, e1, e2⟩ := idxw0 t
  funext y
  show Gen.V m c main_call0_v0 (((cfg0.win 0).blk t).view.emb y) = Gen.V m c main_call0_v0 y
  refine congrArg _ (funext fun a => Fin.ext ?_)
  match a with
  | ⟨0, _⟩ => show win0_0.index t (0 : Fin 3) * 2 + 1 * (y 0).val = (y 0).val; omega
  | ⟨1, _⟩ => show win0_0.index t (1 : Fin 3) * 2048 + 1 * (y 1).val = (y 1).val; omega
  | ⟨2, _⟩ => show win0_0.index t (2 : Fin 3) * 2048 + 1 * (y 2).val = (y 2).val; omega

theorem idxw1 : ∀ t : Fin cfg0.N, win0_1.index t (0 : Fin 3) = 0 ∧ win0_1.index t (1 : Fin 3) = 0 ∧ win0_1.index t (2 : Fin 3) = 0 :=
  (by decide +kernel : ∀ t : Fin grid0.N, _)

/-- Window 1's one block is its whole array. -/
theorem iblk1 (c : Dev nD) (t : Fin cfg0.N) : Gen.iblk m c 1 t = (Gen.V m c main_arg0 : S2x2048x64.Idx → EReal) := by
  obtain ⟨e0, e1, e2⟩ := idxw1 t
  funext y
  show Gen.V m c main_arg0 (((cfg0.win 1).blk t).view.emb y) = Gen.V m c main_arg0 y
  refine congrArg _ (funext fun a => Fin.ext ?_)
  match a with
  | ⟨0, _⟩ => show win0_1.index t (0 : Fin 3) * 2 + 1 * (y 0).val = (y 0).val; omega
  | ⟨1, _⟩ => show win0_1.index t (1 : Fin 3) * 2048 + 1 * (y 1).val = (y 1).val; omega
  | ⟨2, _⟩ => show win0_1.index t (2 : Fin 3) * 64 + 1 * (y 2).val = (y 2).val; omega

theorem idxw2 : ∀ t : Fin cfg0.N, win0_2.index t (0 : Fin 3) = 0 ∧ win0_2.index t (1 : Fin 3) = 0 ∧ win0_2.index t (2 : Fin 3) = 0 :=
  (by decide +kernel : ∀ t : Fin grid0.N, _)

/-- Window 2's one block is its whole array. -/
theorem iblk2 (c : Dev nD) (t : Fin cfg0.N) : Gen.iblk m c 2 t = (Gen.V m c main_arg2 : S2x2048x64.Idx → EReal) := by
  obtain ⟨e0, e1, e2⟩ := idxw2 t
  funext y
  show Gen.V m c main_arg2 (((cfg0.win 2).blk t).view.emb y) = Gen.V m c main_arg2 y
  refine congrArg _ (funext fun a => Fin.ext ?_)
  match a with
  | ⟨0, _⟩ => show win0_2.index t (0 : Fin 3) * 2 + 1 * (y 0).val = (y 0).val; omega
  | ⟨1, _⟩ => show win0_2.index t (1 : Fin 3) * 2048 + 1 * (y 1).val = (y 1).val; omega
  | ⟨2, _⟩ => show win0_2.index t (2 : Fin 3) * 64 + 1 * (y 2).val = (y 2).val; omega

theorem idxw3 : ∀ t : Fin cfg0.N, win0_3.index t (0 : Fin 2) = 0 ∧ win0_3.index t (1 : Fin 2) = 0 :=
  (by decide +kernel : ∀ t : Fin grid0.N, _)

/-- Window 3's one block is its whole array. -/
theorem iblk3 (c : Dev nD) (t : Fin cfg0.N) : Gen.iblk m c 3 t = (Gen.V m c main_call0_v4 : S128x640.Idx → EReal) := by
  obtain ⟨e0, e1⟩ := idxw3 t
  funext y
  show Gen.V m c main_call0_v4 (((cfg0.win 3).blk t).view.emb y) = Gen.V m c main_call0_v4 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 640 + 1 * (y 1).val = (y 1).val; omega

theorem idxw4 : ∀ t : Fin cfg0.N, win0_4.index t (0 : Fin 2) = 0 ∧ win0_4.index t (1 : Fin 2) = 0 :=
  (by decide +kernel : ∀ t : Fin grid0.N, _)

/-- Window 4's one block is its whole array. -/
theorem iblk4 (c : Dev nD) (t : Fin cfg0.N) : Gen.iblk m c 4 t = (Gen.V m c main_call0_v7 : S128x320.Idx → EReal) := by
  obtain ⟨e0, e1⟩ := idxw4 t
  funext y
  show Gen.V m c main_call0_v7 (((cfg0.win 4).blk t).view.emb y) = Gen.V m c main_call0_v7 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 320 + 1 * (y 1).val = (y 1).val; omega

theorem idxw5 : ∀ t : Fin cfg0.N, win0_5.index t (0 : Fin 2) = 0 ∧ win0_5.index t (1 : Fin 2) = 0 :=
  (by decide +kernel : ∀ t : Fin grid0.N, _)

/-- Window 5's one block is its whole array. -/
theorem iblk5 (c : Dev nD) (t : Fin cfg0.N) : Gen.iblk m c 5 t = (Gen.V m c main_arg6 : S2048x64.Idx → EReal) := by
  obtain ⟨e0, e1⟩ := idxw5 t
  funext y
  show Gen.V m c main_arg6 (((cfg0.win 5).blk t).view.emb y) = Gen.V m c main_arg6 y
  refine congrArg _ (funext fun a => Fin.ext ?_)
  match a with
  | ⟨0, _⟩ => show win0_5.index t (0 : Fin 2) * 2048 + 1 * (y 0).val = (y 0).val; omega
  | ⟨1, _⟩ => show win0_5.index t (1 : Fin 2) * 64 + 1 * (y 1).val = (y 1).val; omega

theorem idxw6 : ∀ t : Fin cfg0.N, win0_6.index t (0 : Fin 2) = 0 ∧ win0_6.index t (1 : Fin 2) = 0 :=
  (by decide +kernel : ∀ t : Fin grid0.N, _)

/-- Window 6's one block is its whole array. -/
theorem iblk6 (c : Dev nD) (t : Fin cfg0.N) : Gen.iblk m c 6 t = (Gen.V m c main_arg7 : S2048x64.Idx → EReal) := by
  obtain ⟨e0, e1⟩ := idxw6 t
  funext y
  show Gen.V m c main_arg7 (((cfg0.win 6).blk t).view.emb y) = Gen.V m c main_arg7 y
  refine congrArg _ (funext fun a => Fin.ext ?_)
  match a with
  | ⟨0, _⟩ => show win0_6.index t (0 : Fin 2) * 2048 + 1 * (y 0).val = (y 0).val; omega
  | ⟨1, _⟩ => show win0_6.index t (1 : Fin 2) * 64 + 1 * (y 1).val = (y 1).val; omega

theorem idxw7 : ∀ t : Fin cfg0.N, win0_7.index t (0 : Fin 2) = 0 ∧ win0_7.index t (1 : Fin 2) = 0 :=
  (by decide +kernel : ∀ t : Fin grid0.N, _)

/-- Window 7's one block is its whole array. -/
theorem iblk7 (c : Dev nD) (t : Fin cfg0.N) : Gen.iblk m c 7 t = (Gen.V m c main_arg8 : S2048x64.Idx → EReal) := by
  obtain ⟨e0, e1⟩ := idxw7 t
  funext y
  show Gen.V m c main_arg8 (((cfg0.win 7).blk t).view.emb y) = Gen.V m c main_arg8 y
  refine congrArg _ (funext fun a => Fin.ext ?_)
  match a with
  | ⟨0, _⟩ => show win0_7.index t (0 : Fin 2) * 2048 + 1 * (y 0).val = (y 0).val; omega
  | ⟨1, _⟩ => show win0_7.index t (1 : Fin 2) * 64 + 1 * (y 1).val = (y 1).val; omega

theorem idxw8 : ∀ t : Fin cfg0.N, win0_8.index t (0 : Fin 3) = 0 ∧ win0_8.index t (1 : Fin 3) = 0 ∧ win0_8.index t (2 : Fin 3) = 0 :=
  (by decide +kernel : ∀ t : Fin grid0.N, _)

/-! ## The output array -/

/-- The result array over the arrays the region finds. -/
def GV (c : Dev nD) : S2x2048x64.Idx → EReal := fun i =>
  kcellB (Gen.V m c main_call0_v0 : S2x2048x2048.Idx → EReal) (Gen.V m c main_arg0 : S2x2048x64.Idx → EReal)
    (Gen.V m c main_arg2 : S2x2048x64.Idx → EReal) (Gen.V m c main_call0_v4 : S128x640.Idx → EReal)
    (Gen.V m c main_call0_v7 : S128x320.Idx → EReal) (Gen.V m c main_arg6 : S2048x64.Idx → EReal)
    (Gen.V m c main_arg7 : S2048x64.Idx → EReal) (Gen.V m c main_arg8 : S2048x64.Idx → EReal) (i 0) (i 1) (i 2)

/-- What the one point writes back is the result array read through the whole block. -/
theorem flushed8_eq (c : Dev nD) (t : Fin cfg0.N) :
    (Gen.dats m 0 c).flushed 8 t = ((cfg0.win 8).blk t).view.read (Elt Ideal) (GV m c) := by
  show (cfg0.win 8).cut (grid0.coords t) ((Gen.dats m 0 c).after 8 t) = _
  rw [Gen.after0_8, iblk0, iblk1, iblk2, iblk3, iblk4, iblk5, iblk6, iblk7]
  obtain ⟨e0, e1, e2⟩ := idxw8 t
  funext y
  revert y
  show ∀ y : S2x2048x64.Idx, Gen.out0_8 (Gen.V m c main_call0_v0 : S2x2048x2048.Idx → EReal) (Gen.V m c main_arg0 : S2x2048x64.Idx → EReal)
      (Gen.V m c main_arg2 : S2x2048x64.Idx → EReal) (Gen.V m c main_call0_v4 : S128x640.Idx → EReal)
      (Gen.V m c main_call0_v7 : S128x320.Idx → EReal) (Gen.V m c main_arg6 : S2048x64.Idx → EReal)
      (Gen.V m c main_arg7 : S2048x64.Idx → EReal) (Gen.V m c main_arg8 : S2048x64.Idx → EReal) y
        = GV m c (((cfg0.win 8).blk t).view.emb y)
  intro y
  have hy : ((cfg0.win 8).blk t).view.emb y = y := funext fun a => Fin.ext (by
    match a with
    | ⟨0, _⟩ => show win0_8.index t (0 : Fin 3) * 2 + 1 * (y 0).val = (y 0).val; omega
    | ⟨1, _⟩ => show win0_8.index t (1 : Fin 3) * 2048 + 1 * (y 1).val = (y 1).val; omega
    | ⟨2, _⟩ => show win0_8.index t (2 : Fin 3) * 64 + 1 * (y 2).val = (y 2).val; omega)
  rw [hy]
  obtain ⟨b, n, j, rfl⟩ : ∃ (b : Fin 2) (n : Fin 2048) (j : Fin 64), y = ix3 b n j := ⟨y 0, y 1, y 2, eq_ix3 y⟩
  rw [out0_8_at]
  rfl

theorem mem_blk8 (t : Fin cfg0.N) (i : S2x2048x64.Idx) :
    i ∈ ((cfg0.win 8).blk t).view.set ↔ ∀ a : Fin 3, win0_8.index t a * S2x2048x64.size a ≤ (i a).val ∧ (i a).val < win0_8.index t a * S2x2048x64.size a + S2x2048x64.size a := by
  show i ∈ ((View.whole main_v0).slice (win0_8.rect t)).set ↔ _
  rw [View.set_slice_whole, Rect.mem_set_unit]
  exact Iff.rfl

theorem cover8 (i : S2x2048x64.Idx) : ∃ t : Fin cfg0.N, (cfg0.win 8).flush t = true ∧ i ∈ ((cfg0.win 8).blk t).view.set := by
  have t0 : Fin cfg0.N := ⟨0, by decide⟩
  obtain ⟨e0, e1, e2⟩ := idxw8 t0
  refine ⟨t0, Gen.flush0_8 t0, ?_⟩
  rw [mem_blk8]
  intro a
  match a with
  | ⟨0, _⟩ => show win0_8.index t0 (0 : Fin 3) * 2 ≤ (i 0).val ∧ (i 0).val < win0_8.index t0 (0 : Fin 3) * 2 + 2; have hi : (i 0).val < 2 := (i 0).isLt; omega
  | ⟨1, _⟩ => show win0_8.index t0 (1 : Fin 3) * 2048 ≤ (i 1).val ∧ (i 1).val < win0_8.index t0 (1 : Fin 3) * 2048 + 2048; have hi : (i 1).val < 2048 := (i 1).isLt; omega
  | ⟨2, _⟩ => show win0_8.index t0 (2 : Fin 3) * 64 ≤ (i 2).val ∧ (i 2).val < win0_8.index t0 (2 : Fin 3) * 64 + 64; have hi : (i 2).val < 64 := (i 2).isLt; omega

/-- After the run the output array is the result array over the arrays the region finds. -/
theorem final8 (c : Dev nD) : (Gen.dats m 0 c).arrAt 8 cfg0.N = GV m c :=
  (Gen.dats m 0 c).arrAt_eq_of_cover 8 _ (fun t _ => flushed8_eq m c t) (fun i => cover8 i)

/-! ## Over the arguments themselves -/

/-- The result array as the specification's Horner cell of the argument arrays. -/
def GK (c : Dev nD) : S2x2048x64.Idx → EReal := fun i =>
  hornerCell (fun n j => (m ((c : Thread nD τ).loc main_arg0) : S2x2048x64.Idx → EReal) (ix3 (i 0) n j))
    (fun n k => (m ((c : Thread nD τ).loc main_arg1) : S2x2048x2048.Idx → EReal) (ix3 (i 0) n k))
    (fun n j => (m ((c : Thread nD τ).loc main_arg2) : S2x2048x64.Idx → EReal) (ix3 (i 0) n j))
    (fun k f j => (m ((c : Thread nD τ).loc main_arg3) : S5x128x64.Idx → EReal) (ix3 k f j))
    (fun k f j => (m ((c : Thread nD τ).loc main_arg4) : S5x128x64.Idx → EReal) (ix3 k f j))
    (fun k f j => (m ((c : Thread nD τ).loc main_arg5) : S5x128x64.Idx → EReal) (ix3 k f j))
    (fun n j => (m ((c : Thread nD τ).loc main_arg6) : S2048x64.Idx → EReal) (ix2 n j))
    (fun n j => (m ((c : Thread nD τ).loc main_arg7) : S2048x64.Idx → EReal) (ix2 n j))
    (fun n j => (m ((c : Thread nD τ).loc main_arg8) : S2048x64.Idx → EReal) (ix2 n j)) (i 1) (i 2)

theorem GV_eq_GK (c : Dev nD) : GV m c = GK m c := by
  have hlo : ∀ (f : Fin 128) (k : Fin 5) (j : Fin 64), (Gen.V m c main_call0_v4 : S128x640.Idx → EReal) (ix2 f (colRU k (lo j)))
      = (m ((c : Thread nD τ).loc main_arg3) : S5x128x64.Idx → EReal) (ix3 k f j) := fun f k j => HostGlue.wru_lo m c f k j
  have hhi : ∀ (f : Fin 128) (k : Fin 5) (j : Fin 64), (Gen.V m c main_call0_v4 : S128x640.Idx → EReal) (ix2 f (colRU k (hi j)))
      = (m ((c : Thread nD τ).loc main_arg4) : S5x128x64.Idx → EReal) (ix3 k f j) := fun f k j => HostGlue.wru_hi m c f k j
  have hc : ∀ (f : Fin 128) (k : Fin 5) (j : Fin 64), (Gen.V m c main_call0_v7 : S128x320.Idx → EReal) (ix2 f (colC k j))
      = (m ((c : Thread nD τ).loc main_arg5) : S5x128x64.Idx → EReal) (ix3 k f j) := fun f k j => HostGlue.wc_at m c f k j
  funext i
  unfold GV GK kcellB hornerCell
  rw [HostGlue.a16_eq, Gen.V_main_arg0, Gen.V_main_arg2, Gen.V_main_arg6, Gen.V_main_arg7, Gen.V_main_arg8]
  simp only [hlo, hhi, hc]

/-- The kernel's run: the result array is the Horner cell of the arguments, the arguments unchanged. -/
theorem run : θ_run defs (onTc (τ := τ) (main (F := Ideal))) ⟨m, fun _ => 0, ρ⟩ fun r => ∀ c : Dev nD,
      r.2.mem ((c : Thread nD τ).loc main_v0) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final8 m c).trans (GV_eq_GK m c)), (h c).2⟩)
    (Cert.KernelIdeal.Value.run_blocks m ρ)

end Cert.Gru.KValue

end
-- ==== Proof.RefRead.lean ====
/-
  The reference program of the graph-diffusion GRU cell, read at one index.

  The reference takes node features X, a node matrix A and a hidden state H (each with a leading batch axis of
  extent two), three weight arrays of five 128 x 64 hop weights each, and three 2048 x 64 bias arrays.  This file
  reads its result at batch b, node n, column j and finds the cell of the specification, with every convolution
  written by powers:  with Z = (X | H) joined along the last axis, T_0 = Z and T_{k+1} = A T_k, a gate's
  convolution is  T_0 W_0 + T_1 W_1 + T_2 W_2 + T_3 W_3 + T_4 W_4  added left to right; the reset and update gates
  are  1 / (1 + exp (-(convolution + bias))),  which is the logistic function by definition; the candidate is
  tanh of the convolution of (X | r * H) plus its bias; the result is  u * H + (1 - u) * candidate.

  Every step is an unfolding that holds for all extended reals: no sum is reordered and nothing is assumed
  finite.  The batch coordinate is passive throughout: every operation acts on the batch-b slab by itself.

  Order of the file: the five kinds of index bookkeeping (a hop weight as a slice of the weight array, one
  diffusion hop, a slab against one weight column, a bias broadcast over the batch, the constant one), the
  concatenation as the two-block array of the specification, the convolution of five hop buffers in general, its
  three instances, the two gates, the second concatenation, and the cell.
-/
import proofs.«121264_g42064909697411_cont_8to1_b_244_10_alg».proof.Proof.Gen.ReferenceIdeal.Read
import proofs.«121264_g42064909697411_cont_8to1_b_244_10_alg».proof.Proof.Spec
import proofs.«121264_g42064909697411_cont_8to1_b_244_10_alg».proof.Proof.LibIdealReads
import Idealize.ShloMosaic.Lib.ValueIdx
import Idealize.ShloMosaic.Lib.Pipeline.Value
import Idealize.ShloMosaic.PureOps.Ideal

noncomputable section

open scoped BigOperators

namespace Cert.Gru.RefRead

open Idealize.ShloMosaic Idealize.ShloMosaic.ValueIdx Cert.ReferenceIdeal Cert.ReferenceIdeal.Gen Cert.ReferenceIdeal.Read

/-- The hop weight W[0] at row f, column j. -/
theorem w0_read (x : (⟨S5x128x64, .f32⟩ : BufTy).Contents (Elt Ideal)) (f : Fin 128) (j : Fin 64) :
    val_main_v2 (F := Ideal) x (ix2 f j) = x (ix3 (0 : Fin 5) f j) := by
  rw [val_main_v2_apply, val_main_v1_apply]
  congr 1
  funext a
  apply Fin.ext
  match a with
  | ⟨0, _⟩ => rfl
  | ⟨1, _⟩ => show ((f.val * 64 + j.val) / 64 % 128) = f.val; omega
  | ⟨2, _⟩ => show ((f.val * 64 + j.val) % 64) = j.val; omega

/-- The hop weight W[1] at row f, column j. -/
theorem w1_read (x : (⟨S5x128x64, .f32⟩ : BufTy).Contents (Elt Ideal)) (f : Fin 128) (j : Fin 64) :
    val_main_v6 (F := Ideal) x (ix2 f j) = x (ix3 (1 : Fin 5) f j) := by
  rw [val_main_v6_apply, val_main_v5_apply]
  congr 1
  funext a
  apply Fin.ext
  match a with
  | ⟨0, _⟩ => rfl
  | ⟨1, _⟩ => show ((f.val * 64 + j.val) / 64 % 128) = f.val; omega
  | ⟨2, _⟩ => show ((f.val * 64 + j.val) % 64) = j.val; omega

/-- One diffusion hop, batch b a passive coordinate. -/
theorem hop_read (A : (⟨S2x2048x2048, .f32⟩ : BufTy).Contents (Elt Ideal)) (T : (⟨S2x2048x128, .f32⟩ : BufTy).Contents (Elt Ideal))
    (b : Fin 2) (n : Fin 2048) (f : Fin 128) :
    (∑ k : Fin 2048, A (lidx_main_v4 (ix3 b n f) k) * T (ridx_main_v4 (ix3 b n f) k))
      = Cert.Gru.hop (fun n m => A (ix3 b n m)) (fun m f => T (ix3 b m f)) n f := by
  show _ = ∑ m : Fin 2048, A (ix3 b n m) * T (ix3 b m f)
  refine Finset.sum_congr rfl fun k _ => ?_
  congr 2
  · funext a; match a with | ⟨0, _⟩ => rfl | ⟨1, _⟩ => rfl | ⟨2, _⟩ => rfl
  · funext a; match a with | ⟨0, _⟩ => rfl | ⟨1, _⟩ => rfl | ⟨2, _⟩ => rfl

/-- A 2048 x 128 slab times one weight column. -/
theorem pv_read (T : (⟨S2x2048x128, .f32⟩ : BufTy).Contents (Elt Ideal)) (W : (⟨S128x64, .f32⟩ : BufTy).Contents (Elt Ideal))
    (b : Fin 2) (n : Fin 2048) (j : Fin 64) :
    (∑ k : Fin 128, T (lidx_main_v3 (ix3 b n j) k) * W (ridx_main_v3 (ix3 b n j) k))
      = Cert.Gru.pv (fun n f => T (ix3 b n f)) (fun f => W (ix2 f j)) n := by
  show _ = ∑ f : Fin 128, T (ix3 b n f) * W (ix2 f j)
  refine Finset.sum_congr rfl fun k _ => ?_
  congr 2
  · funext a; match a with | ⟨0, _⟩ => rfl | ⟨1, _⟩ => rfl | ⟨2, _⟩ => rfl
  · funext a; match a with | ⟨0, _⟩ => rfl | ⟨1, _⟩ => rfl

/-- The bias broadcast over the batch. -/
theorem bias_read (x : (⟨S2048x64, .f32⟩ : BufTy).Contents (Elt Ideal)) (b : Fin 2) (n : Fin 2048) (j : Fin 64) :
    val_main_v25 (F := Ideal) x (ix3 b n j) = x (ix2 n j) := by
  rw [val_main_v25_apply, val_main_v24_apply]
  congr 1
  funext a; match a with | ⟨0, _⟩ => rfl | ⟨1, _⟩ => rfl

/-- The broadcast constant one. -/
theorem one_read (i : S2x2048x64.Idx) : val_main_v29 (F := Ideal) i = 1 := by
  rw [val_main_v29_apply, val_main_cst_apply]
  exact Cert.Lib.IdealReads.ofBits_one_f32

/-- Two 64-column arrays joined along the last axis. -/
theorem cat_read (x y : (⟨S2x2048x64, .f32⟩ : BufTy).Contents (Elt Ideal)) (b : Fin 2) (n : Fin 2048) (f : Fin 128) :
    concatenate S2x2048x128 2 [⟨S2x2048x64, x⟩, ⟨S2x2048x64, y⟩] concatenates_S2x2048x64_S2x2048x64_S2x2048x128_d2 (ix3 b n f)
      = Cert.Gru.cat (fun n j => x (ix3 b n j)) (fun n j => y (ix3 b n j)) n f := by
  unfold Cert.Gru.cat
  split
  · next h =>
    refine concatenate_pair_apply_left (2 : Fin S2x2048x128.rank) x y concatenates_S2x2048x64_S2x2048x64_S2x2048x128_d2 (ix3 b n f) rfl (ix3 b n ⟨f.val, h⟩) ?_
    intro c; match c with | ⟨0, _⟩ => rfl | ⟨1, _⟩ => rfl | ⟨2, _⟩ => rfl
  · next h =>
    refine concatenate_pair_apply_right (2 : Fin S2x2048x128.rank) x y concatenates_S2x2048x64_S2x2048x64_S2x2048x128_d2 (ix3 b n f) rfl rfl (ix3 b n ⟨f.val - 64, by omega⟩) ?_ ?_
    · intro c hc; match c, hc with | ⟨0, _⟩, _ => rfl | ⟨1, _⟩, _ => rfl | ⟨2, _⟩, hc => exact absurd rfl hc
    · show (f.val - 64) + 64 = f.val; omega

/-- The hop weight W[2] at row f, column j. -/
theorem w2_read (x : (⟨S5x128x64, .f32⟩ : BufTy).Contents (Elt Ideal)) (f : Fin 128) (j : Fin 64) :
    val_main_v11 (F := Ideal) x (ix2 f j) = x (ix3 (2 : Fin 5) f j) := by
  rw [val_main_v11_apply, val_main_v10_apply]
  congr 1
  funext a
  apply Fin.ext
  match a with
  | ⟨0, _⟩ => rfl
  | ⟨1, _⟩ => show ((f.val * 64 + j.val) / 64 % 128) = f.val; omega
  | ⟨2, _⟩ => show ((f.val * 64 + j.val) % 64) = j.val; omega

/-- The hop weight W[3] at row f, column j. -/
theorem w3_read (x : (⟨S5x128x64, .f32⟩ : BufTy).Contents (Elt Ideal)) (f : Fin 128) (j : Fin 64) :
    val_main_v16 (F := Ideal) x (ix2 f j) = x (ix3 (3 : Fin 5) f j) := by
  rw [val_main_v16_apply, val_main_v15_apply]
  congr 1
  funext a
  apply Fin.ext
  match a with
  | ⟨0, _⟩ => rfl
  | ⟨1, _⟩ => show ((f.val * 64 + j.val) / 64 % 128) = f.val; omega
  | ⟨2, _⟩ => show ((f.val * 64 + j.val) % 64) = j.val; omega

/-- The hop weight W[4] at row f, column j. -/
theorem w4_read (x : (⟨S5x128x64, .f32⟩ : BufTy).Contents (Elt Ideal)) (f : Fin 128) (j : Fin 64) :
    val_main_v21 (F := Ideal) x (ix2 f j) = x (ix3 (4 : Fin 5) f j) := by
  rw [val_main_v21_apply, val_main_v20_apply]
  congr 1
  funext a
  apply Fin.ext
  match a with
  | ⟨0, _⟩ => rfl
  | ⟨1, _⟩ => show ((f.val * 64 + j.val) / 64 % 128) = f.val; omega
  | ⟨2, _⟩ => show ((f.val * 64 + j.val) % 64) = j.val; omega

/-- Five hop buffers, each the node matrix times the one before, against five weight matrices that are the five
    slices of one weight array: the sum of the five products, added left to right, is the convolution by powers. -/
theorem conv_read (A : (⟨S2x2048x2048, .f32⟩ : BufTy).Contents (Elt Ideal))
    (T0 T1 T2 T3 T4 : (⟨S2x2048x128, .f32⟩ : BufTy).Contents (Elt Ideal))
    (V0 V1 V2 V3 V4 : (⟨S128x64, .f32⟩ : BufTy).Contents (Elt Ideal))
    (x : (⟨S5x128x64, .f32⟩ : BufTy).Contents (Elt Ideal))
    (h1 : ∀ i, T1 i = ∑ k : Fin 2048, A (lidx_main_v4 i k) * T0 (ridx_main_v4 i k))
    (h2 : ∀ i, T2 i = ∑ k : Fin 2048, A (lidx_main_v4 i k) * T1 (ridx_main_v4 i k))
    (h3 : ∀ i, T3 i = ∑ k : Fin 2048, A (lidx_main_v4 i k) * T2 (ridx_main_v4 i k))
    (h4 : ∀ i, T4 i = ∑ k : Fin 2048, A (lidx_main_v4 i k) * T3 (ridx_main_v4 i k))
    (w0 : ∀ f j, V0 (ix2 f j) = x (ix3 (0 : Fin 5) f j))
    (w1 : ∀ f j, V1 (ix2 f j) = x (ix3 (1 : Fin 5) f j))
    (w2 : ∀ f j, V2 (ix2 f j) = x (ix3 (2 : Fin 5) f j))
    (w3 : ∀ f j, V3 (ix2 f j) = x (ix3 (3 : Fin 5) f j))
    (w4 : ∀ f j, V4 (ix2 f j) = x (ix3 (4 : Fin 5) f j))
    (b : Fin 2) (n : Fin 2048) (j : Fin 64) :
    (∑ k : Fin 128, T0 (lidx_main_v3 (ix3 b n j) k) * V0 (ridx_main_v3 (ix3 b n j) k))
      + (∑ k : Fin 128, T1 (lidx_main_v3 (ix3 b n j) k) * V1 (ridx_main_v3 (ix3 b n j) k))
      + (∑ k : Fin 128, T2 (lidx_main_v3 (ix3 b n j) k) * V2 (ridx_main_v3 (ix3 b n j) k))
      + (∑ k : Fin 128, T3 (lidx_main_v3 (ix3 b n j) k) * V3 (ridx_main_v3 (ix3 b n j) k))
      + (∑ k : Fin 128, T4 (lidx_main_v3 (ix3 b n j) k) * V4 (ridx_main_v3 (ix3 b n j) k))
      = Cert.Gru.powers (fun n m => A (ix3 b n m)) (fun n f => T0 (ix3 b n f)) (fun k f => x (ix3 k f j)) n := by
  have e1 : (fun n f => T1 (ix3 b n f)) = Cert.Gru.hop (fun n m => A (ix3 b n m)) (fun n f => T0 (ix3 b n f)) :=
    funext fun n => funext fun f => (h1 _).trans (hop_read A T0 b n f)
  have e2 : (fun n f => T2 (ix3 b n f)) = Cert.Gru.hop (fun n m => A (ix3 b n m)) (fun n f => T1 (ix3 b n f)) :=
    funext fun n => funext fun f => (h2 _).trans (hop_read A T1 b n f)
  have e3 : (fun n f => T3 (ix3 b n f)) = Cert.Gru.hop (fun n m => A (ix3 b n m)) (fun n f => T2 (ix3 b n f)) :=
    funext fun n => funext fun f => (h3 _).trans (hop_read A T2 b n f)
  have e4 : (fun n f => T4 (ix3 b n f)) = Cert.Gru.hop (fun n m => A (ix3 b n m)) (fun n f => T3 (ix3 b n f)) :=
    funext fun n => funext fun f => (h4 _).trans (hop_read A T3 b n f)
  have u0 : (fun f => V0 (ix2 f j)) = fun f => x (ix3 (0 : Fin 5) f j) := funext fun f => w0 f j
  have u1 : (fun f => V1 (ix2 f j)) = fun f => x (ix3 (1 : Fin 5) f j) := funext fun f => w1 f j
  have u2 : (fun f => V2 (ix2 f j)) = fun f => x (ix3 (2 : Fin 5) f j) := funext fun f => w2 f j
  have u3 : (fun f => V3 (ix2 f j)) = fun f => x (ix3 (3 : Fin 5) f j) := funext fun f => w3 f j
  have u4 : (fun f => V4 (ix2 f j)) = fun f => x (ix3 (4 : Fin 5) f j) := funext fun f => w4 f j
  rw [pv_read T0 V0, pv_read T1 V1, pv_read T2 V2, pv_read T3 V3, pv_read T4 V4, e4, e3, e2, e1, u0, u1, u2, u3, u4]
  rfl

/-- The reset gate's convolution at node n, column j. -/
theorem conv_r (x0 : (⟨S2x2048x64, .f32⟩ : BufTy).Contents (Elt Ideal)) (x1 : (⟨S2x2048x2048, .f32⟩ : BufTy).Contents (Elt Ideal))
    (x2 : (⟨S2x2048x64, .f32⟩ : BufTy).Contents (Elt Ideal)) (x3 : (⟨S5x128x64, .f32⟩ : BufTy).Contents (Elt Ideal))
    (b : Fin 2) (n : Fin 2048) (j : Fin 64) :
    val_main_v23 (F := Ideal) x0 x1 x2 x3 (ix3 b n j)
      = Cert.Gru.powers (fun n m => x1 (ix3 b n m)) (fun n f => val_main_v0 (F := Ideal) x0 x2 (ix3 b n f)) (fun k f => x3 (ix3 k f j)) n := by
  rw [val_main_v23_apply, val_main_v18_apply, val_main_v13_apply, val_main_v8_apply, val_main_v3_apply, val_main_v7_apply,
    val_main_v12_apply, val_main_v17_apply, val_main_v22_apply]
  exact conv_read x1 (val_main_v0 (F := Ideal) x0 x2) (val_main_v4 (F := Ideal) x0 x1 x2) (val_main_v9 (F := Ideal) x0 x1 x2)
    (val_main_v14 (F := Ideal) x0 x1 x2) (val_main_v19 (F := Ideal) x0 x1 x2)
    (val_main_v2 (F := Ideal) x3) (val_main_v6 (F := Ideal) x3) (val_main_v11 (F := Ideal) x3) (val_main_v16 (F := Ideal) x3) (val_main_v21 (F := Ideal) x3) x3
    (val_main_v4_apply x0 x1 x2) (val_main_v9_apply x0 x1 x2) (val_main_v14_apply x0 x1 x2) (val_main_v19_apply x0 x1 x2)
    (w0_read x3) (w1_read x3) (w2_read x3) (w3_read x3) (w4_read x3) b n j

/-- The update gate's convolution at node n, column j: the same hop buffers, computed a second time. -/
theorem conv_u (x0 : (⟨S2x2048x64, .f32⟩ : BufTy).Contents (Elt Ideal)) (x1 : (⟨S2x2048x2048, .f32⟩ : BufTy).Contents (Elt Ideal))
    (x2 : (⟨S2x2048x64, .f32⟩ : BufTy).Contents (Elt Ideal)) (x4 : (⟨S5x128x64, .f32⟩ : BufTy).Contents (Elt Ideal))
    (b : Fin 2) (n : Fin 2048) (j : Fin 64) :
    val_main_v55 (F := Ideal) x0 x1 x2 x4 (ix3 b n j)
      = Cert.Gru.powers (fun n m => x1 (ix3 b n m)) (fun n f => val_main_v0 (F := Ideal) x0 x2 (ix3 b n f)) (fun k f => x4 (ix3 k f j)) n := by
  rw [val_main_v55_apply, val_main_v50_apply, val_main_v45_apply, val_main_v40_apply, val_main_v35_apply, val_main_v39_apply,
    val_main_v44_apply, val_main_v49_apply, val_main_v54_apply]
  exact conv_read x1 (val_main_v0 (F := Ideal) x0 x2) (val_main_v36 (F := Ideal) x0 x1 x2) (val_main_v41 (F := Ideal) x0 x1 x2)
    (val_main_v46 (F := Ideal) x0 x1 x2) (val_main_v51 (F := Ideal) x0 x1 x2)
    (val_main_v34 (F := Ideal) x4) (val_main_v38 (F := Ideal) x4) (val_main_v43 (F := Ideal) x4) (val_main_v48 (F := Ideal) x4) (val_main_v53 (F := Ideal) x4) x4
    (val_main_v36_apply x0 x1 x2) (val_main_v41_apply x0 x1 x2) (val_main_v46_apply x0 x1 x2) (val_main_v51_apply x0 x1 x2)
    (w0_read x4) (w1_read x4) (w2_read x4) (w3_read x4) (w4_read x4) b n j

/-- The candidate's convolution at node n, column j, of whatever array the second concatenation holds. -/
theorem conv_c (x0 : (⟨S2x2048x64, .f32⟩ : BufTy).Contents (Elt Ideal)) (x1 : (⟨S2x2048x2048, .f32⟩ : BufTy).Contents (Elt Ideal))
    (x2 : (⟨S2x2048x64, .f32⟩ : BufTy).Contents (Elt Ideal)) (x3 x5 : (⟨S5x128x64, .f32⟩ : BufTy).Contents (Elt Ideal))
    (x6 : (⟨S2048x64, .f32⟩ : BufTy).Contents (Elt Ideal)) (b : Fin 2) (n : Fin 2048) (j : Fin 64) :
    val_main_v89 (F := Ideal) x0 x1 x2 x3 x5 x6 (ix3 b n j)
      = Cert.Gru.powers (fun n m => x1 (ix3 b n m)) (fun n f => val_main_v66 (F := Ideal) x0 x1 x2 x3 x6 (ix3 b n f))
          (fun k f => x5 (ix3 k f j)) n := by
  rw [val_main_v89_apply, val_main_v84_apply, val_main_v79_apply, val_main_v74_apply, val_main_v69_apply, val_main_v73_apply,
    val_main_v78_apply, val_main_v83_apply, val_main_v88_apply]
  exact conv_read x1 (val_main_v66 (F := Ideal) x0 x1 x2 x3 x6) (val_main_v70 (F := Ideal) x0 x1 x2 x3 x6) (val_main_v75 (F := Ideal) x0 x1 x2 x3 x6)
    (val_main_v80 (F := Ideal) x0 x1 x2 x3 x6) (val_main_v85 (F := Ideal) x0 x1 x2 x3 x6)
    (val_main_v68 (F := Ideal) x5) (val_main_v72 (F := Ideal) x5) (val_main_v77 (F := Ideal) x5) (val_main_v82 (F := Ideal) x5) (val_main_v87 (F := Ideal) x5) x5
    (val_main_v70_apply x0 x1 x2 x3 x6) (val_main_v75_apply x0 x1 x2 x3 x6) (val_main_v80_apply x0 x1 x2 x3 x6) (val_main_v85_apply x0 x1 x2 x3 x6)
    (w0_read x5) (w1_read x5) (w2_read x5) (w3_read x5) (w4_read x5) b n j

/-- The first concatenation's batch-b slab is (X | H). -/
theorem slab_v0 (x0 x2 : (⟨S2x2048x64, .f32⟩ : BufTy).Contents (Elt Ideal)) (b : Fin 2) :
    (fun n f => val_main_v0 (F := Ideal) x0 x2 (ix3 b n f)) = Cert.Gru.cat (fun n j => x0 (ix3 b n j)) (fun n j => x2 (ix3 b n j)) :=
  funext fun n => funext fun f => cat_read x0 x2 b n f

/-- The reset gate at (b, n, j): the logistic function, printed as 1 / (1 + exp (-z)), of the convolution plus the bias. -/
theorem gate_r (x0 : (⟨S2x2048x64, .f32⟩ : BufTy).Contents (Elt Ideal)) (x1 : (⟨S2x2048x2048, .f32⟩ : BufTy).Contents (Elt Ideal))
    (x2 : (⟨S2x2048x64, .f32⟩ : BufTy).Contents (Elt Ideal)) (x3 : (⟨S5x128x64, .f32⟩ : BufTy).Contents (Elt Ideal))
    (x6 : (⟨S2048x64, .f32⟩ : BufTy).Contents (Elt Ideal)) (b : Fin 2) (n : Fin 2048) (j : Fin 64) :
    val_main_v32 (F := Ideal) x0 x1 x2 x3 x6 (ix3 b n j)
      = Ideal.logistic (Cert.Gru.powers (fun n m => x1 (ix3 b n m))
          (Cert.Gru.cat (fun n j => x0 (ix3 b n j)) (fun n j => x2 (ix3 b n j))) (fun k f => x3 (ix3 k f j)) n + x6 (ix2 n j)) := by
  rw [val_main_v32_apply, val_main_v30_apply, val_main_v28_apply, val_main_v27_apply, val_main_v26_apply, conv_r, slab_v0, bias_read,
    one_read, show val_main_v31 (F := Ideal) (ix3 b n j) = 1 from one_read _]
  rfl

/-- The update gate at (b, n, j). -/
theorem gate_u (x0 : (⟨S2x2048x64, .f32⟩ : BufTy).Contents (Elt Ideal)) (x1 : (⟨S2x2048x2048, .f32⟩ : BufTy).Contents (Elt Ideal))
    (x2 : (⟨S2x2048x64, .f32⟩ : BufTy).Contents (Elt Ideal)) (x4 : (⟨S5x128x64, .f32⟩ : BufTy).Contents (Elt Ideal))
    (x7 : (⟨S2048x64, .f32⟩ : BufTy).Contents (Elt Ideal)) (b : Fin 2) (n : Fin 2048) (j : Fin 64) :
    val_main_v64 (F := Ideal) x0 x1 x2 x4 x7 (ix3 b n j)
      = Ideal.logistic (Cert.Gru.powers (fun n m => x1 (ix3 b n m))
          (Cert.Gru.cat (fun n j => x0 (ix3 b n j)) (fun n j => x2 (ix3 b n j))) (fun k f => x4 (ix3 k f j)) n + x7 (ix2 n j)) := by
  rw [val_main_v64_apply, val_main_v62_apply, val_main_v60_apply, val_main_v59_apply, val_main_v58_apply, conv_u, slab_v0,
    show val_main_v57 (F := Ideal) x7 (ix3 b n j) = x7 (ix2 n j) from bias_read x7 b n j,
    show val_main_v61 (F := Ideal) (ix3 b n j) = 1 from one_read _, show val_main_v63 (F := Ideal) (ix3 b n j) = 1 from one_read _]
  rfl

/-- The second concatenation's batch-b slab is (X | r * H) with r the reset gate. -/
theorem slab_v66 (x0 : (⟨S2x2048x64, .f32⟩ : BufTy).Contents (Elt Ideal)) (x1 : (⟨S2x2048x2048, .f32⟩ : BufTy).Contents (Elt Ideal))
    (x2 : (⟨S2x2048x64, .f32⟩ : BufTy).Contents (Elt Ideal)) (x3 : (⟨S5x128x64, .f32⟩ : BufTy).Contents (Elt Ideal))
    (x6 : (⟨S2048x64, .f32⟩ : BufTy).Contents (Elt Ideal)) (b : Fin 2) :
    (fun n f => val_main_v66 (F := Ideal) x0 x1 x2 x3 x6 (ix3 b n f))
      = Cert.Gru.cat (fun n j => x0 (ix3 b n j))
          (fun n' j' => Ideal.logistic (Cert.Gru.powers (fun n m => x1 (ix3 b n m))
              (Cert.Gru.cat (fun n j => x0 (ix3 b n j)) (fun n j => x2 (ix3 b n j))) (fun k f => x3 (ix3 k f j')) n' + x6 (ix2 n' j'))
            * x2 (ix3 b n' j')) := by
  have e : (fun n j => val_main_v65 (F := Ideal) x0 x1 x2 x3 x6 (ix3 b n j))
      = fun n' j' => Ideal.logistic (Cert.Gru.powers (fun n m => x1 (ix3 b n m))
              (Cert.Gru.cat (fun n j => x0 (ix3 b n j)) (fun n j => x2 (ix3 b n j))) (fun k f => x3 (ix3 k f j')) n' + x6 (ix2 n' j'))
            * x2 (ix3 b n' j') :=
    funext fun n => funext fun j => by rw [val_main_v65_apply, gate_r]; rfl
  rw [← e]
  exact funext fun n => funext fun f => cat_read x0 (val_main_v65 (F := Ideal) x0 x1 x2 x3 x6) b n f

/-- The reference's result at batch b, node n, column j is the specification's cell, by powers, on the batch-b slabs. -/
theorem ref_at (x0 : (⟨S2x2048x64, .f32⟩ : BufTy).Contents (Elt Ideal)) (x1 : (⟨S2x2048x2048, .f32⟩ : BufTy).Contents (Elt Ideal))
    (x2 : (⟨S2x2048x64, .f32⟩ : BufTy).Contents (Elt Ideal)) (x3 x4 x5 : (⟨S5x128x64, .f32⟩ : BufTy).Contents (Elt Ideal))
    (x6 x7 x8 : (⟨S2048x64, .f32⟩ : BufTy).Contents (Elt Ideal)) (b : Fin 2) (n : Fin 2048) (j : Fin 64) :
    Cert.ReferenceIdeal.Read.val_main_v98 (F := Ideal) x0 x1 x2 x3 x4 x5 x6 x7 x8 (ix3 b n j)
      = Cert.Gru.refCell (fun n j => x0 (ix3 b n j)) (fun n m => x1 (ix3 b n m)) (fun n j => x2 (ix3 b n j))
          (fun k f j => x3 (ix3 k f j)) (fun k f j => x4 (ix3 k f j)) (fun k f j => x5 (ix3 k f j))
          (fun n j => x6 (ix2 n j)) (fun n j => x7 (ix2 n j)) (fun n j => x8 (ix2 n j)) n j := by
  rw [val_main_v98_apply, val_main_v97_apply, val_main_v96_apply, val_main_v94_apply, val_main_v93_apply, val_main_v92_apply,
    gate_u, conv_c, slab_v66,
    show val_main_v91 (F := Ideal) x8 (ix3 b n j) = x8 (ix2 n j) from bias_read x8 b n j,
    show val_main_v95 (F := Ideal) (ix3 b n j) = 1 from one_read _]
  rfl

end Cert.Gru.RefRead

end
-- ==== Proof.LibERealFinite.lean ====
/-
  Finite extended reals.

  An extended real is *real* when it is the coercion of a real number, that is, neither +∞ nor -∞.
  The algebraic laws that fail at the infinities (distributivity, cancelling, moving a factor across
  a sum) hold for real extended reals, so a proof that needs them first shows that every value it
  handles is real.  This file has the coercion of a finite sum, the closure of the real extended
  reals under the arithmetic operations (sum, difference, product, finite sums and products, maximum,
  minimum, the rectifier max(x, 0), a quotient by a nonzero real, the exponential), and the facts
  about a maximum taken as a fold of max from -∞ over a nonempty finite set: it is attained, it bounds
  every entry, and it is real when every entry is.  It also has distributivity on real extended
  reals (x · (y + z) = x · y + x · z, x · Σ_i f i = Σ_i x · f i), and the softmax denominator:
  for real x_l over a nonempty finite index set, Σ_l exp(x_l - max_j x_j) is a real ≥ 1, hence not 0;
  and the way in: an x with |x| < +∞ (as the float comparison decides it) is real, as are integer
  conversions and contractions of reals.
-/
import Idealize.ShloMosaic.PureOps.Ideal

namespace Idealize.ShloMosaic.LibERealLaws

open scoped BigOperators

/-! ### The coercion of a finite sum -/

/-- The coercion ℝ → [-∞, +∞] commutes with finite sums:
    the extended real of Σ_{i ∈ s} f i is Σ_{i ∈ s} of the extended reals of the f i. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion ℝ → [-∞, +∞] commutes with finite products:
    the extended real of Π_{i ∈ s} f i is Π_{i ∈ s} of the extended reals of the f i. -/
theorem coe_finset_prod {ι : Type*} (s : Finset ι) (f : ι → ℝ) :
    ((∏ i ∈ s, f i : ℝ) : EReal) = ∏ i ∈ s, (f i : EReal) := by
  classical
  induction s using Finset.induction_on with
  | empty => simp
  | insert a s ha ih => rw [Finset.prod_insert ha, Finset.prod_insert ha, EReal.coe_mul, ih]

/-! ### Real extended reals -/

/-- IsReal x: the extended real x is the coercion of a real number (it is neither +∞ nor -∞). -/
def IsReal (x : EReal) : Prop := ∃ r : ℝ, x = (r : EReal)

/-- The coercion of a real number is real. -/
theorem isReal_coe (r : ℝ) : IsReal (r : EReal) := ⟨r, rfl⟩

/-- 0 is real. -/
theorem isReal_zero : IsReal 0 := ⟨0, rfl⟩

/-- 1 is real. -/
theorem isReal_one : IsReal 1 := ⟨1, rfl⟩

/-- An integer, read as a real and then as an extended real, is real. -/
theorem isReal_intCast (z : ℤ) : IsReal (((z : ℝ)) : EReal) := ⟨z, rfl⟩

/-- A natural number, read as a real and then as an extended real, is real. -/
theorem isReal_natCast (n : ℕ) : IsReal (((n : ℝ)) : EReal) := ⟨n, rfl⟩

namespace IsReal

variable {x y : EReal}

/-- A real extended real is not +∞. -/
theorem ne_top (hx : IsReal x) : x ≠ ⊤ := by
  obtain ⟨r, rfl⟩ := hx; exact EReal.coe_ne_top r

/-- A real extended real is not -∞. -/
theorem ne_bot (hx : IsReal x) : x ≠ ⊥ := by
  obtain ⟨r, rfl⟩ := hx; exact EReal.coe_ne_bot r

/-- A real extended real is the coercion of its real part: x = ↑(toReal x). -/
theorem coe_toReal (hx : IsReal x) : ((x.toReal : ℝ) : EReal) = x :=
  EReal.coe_toReal hx.ne_top hx.ne_bot

/-- The sum of two real extended reals is real. -/
theorem add (hx : IsReal x) (hy : IsReal y) : IsReal (x + y) := by
  obtain ⟨a, rfl⟩ := hx; obtain ⟨b, rfl⟩ := hy
  exact ⟨a + b, (EReal.coe_add a b).symm⟩

/-- The negative of a real extended real is real. -/
theorem neg (hx : IsReal x) : IsReal (-x) := by
  obtain ⟨a, rfl⟩ := hx
  exact ⟨-a, (EReal.coe_neg a).symm⟩

/-- The difference of two real extended reals is real. -/
theorem sub (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem mul (hx : IsReal x) (hy : IsReal y) : IsReal (x * y) := by
  obtain ⟨a, rfl⟩ := hx; obtain ⟨b, rfl⟩ := hy
  exact ⟨a * b, (EReal.coe_mul a b).symm⟩

/-- The maximum of two real extended reals is real. -/
theorem max (hx : IsReal x) (hy : IsReal y) : IsReal (max x y) := by
  rcases max_choice x y with h | h <;> rw [h] <;> assumption

/-- The minimum of two real extended reals is real. -/
theorem min (hx : IsReal x) (hy : IsReal y) : IsReal (min x y) := by
  rcases min_choice x y with h | h <;> rw [h] <;> assumption

/-- The rectifier max(x, 0) of a real extended real is real. -/
theorem relu (hx : IsReal x) : IsReal (Max.max x 0) := hx.max isReal_zero

/-- The rectifier of a real extended real is the coercion of the real rectifier:
    max(↑r, 0) = ↑(max(r, 0)). -/
theorem relu_coe (r : ℝ) : Max.max (r : EReal) 0 = ((Max.max r 0 : ℝ) : EReal) := by
  rw [← EReal.coe_zero]; exact (EReal.coe_strictMono.monotone.map_max).symm

/-- The absolute value max(x, -x) of a real extended real is real. -/
theorem abs (hx : IsReal x) : IsReal (Max.max x (-x)) := hx.max hx.neg

/-- A finite sum of real extended reals is real. -/
theorem sum {ι : Type*} {s : Finset ι} {f : ι → EReal} (hf : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-- A sum over a whole finite index type of real extended reals is real. -/
theorem sum_univ {ι : Type*} [Fintype ι] {f : ι → EReal} (hf : ∀ i, IsReal (f i)) :
    IsReal (∑ i, f i) := sum fun i _ => hf i

/-- A finite product of real extended reals is real. -/
theorem prod {ι : Type*} {s : Finset ι} {f : ι → EReal} (hf : ∀ i ∈ s, IsReal (f i)) :
    IsReal (∏ i ∈ s, f i) := by
  classical
  induction s using Finset.induction_on with
  | empty => rw [Finset.prod_empty]; exact isReal_one
  | insert a s ha ih =>
    rw [Finset.prod_insert ha]
    exact (hf a (Finset.mem_insert_self a s)).mul (ih fun i hi => hf i (Finset.mem_insert_of_mem hi))

/-- A family of real extended reals is the coercion of a family of reals: if every f i is real
    there is g : ι → ℝ with f i = ↑(g i) for every i. -/
theorem exists_fun {ι : Type*} {f : ι → EReal} (hf : ∀ i, IsReal (f i)) :
    ∃ g : ι → ℝ, f = fun i => (g i : EReal) := by
  choose g hg using hf
  exact ⟨g, funext hg⟩

/-- The exponential of a real extended real (the exponential extended by exp(-∞) = 0,
    exp(+∞) = +∞) is the coercion of a positive real. -/
theorem exp_pos (hx : IsReal x) : ∃ r : ℝ, 0 < r ∧ Ideal.exp x = (r : EReal) := by
  obtain ⟨a, rfl⟩ := hx
  exact ⟨Real.exp a, Real.exp_pos a, Ideal.exp_coe a⟩

/-- The exponential of a real extended real is real. -/
theorem exp (hx : IsReal x) : IsReal (Ideal.exp x) := by
  obtain ⟨r, _, h⟩ := hx.exp_pos; exact ⟨r, h⟩

/-- The quotient of a real extended real by a nonzero real one is the real quotient:
    ↑a / ↑b = ↑(a / b) for b ≠ 0, division being the one that sends x / 0 to ±∞. -/
theorem div_coe (a : ℝ) {b : ℝ} (hb : b ≠ 0) :
    Ideal.div (a : EReal) (b : EReal) = ((a / b : ℝ) : EReal) := by
  rw [Ideal.div_coe hb, ← EReal.coe_mul, mul_one_div]

/-- The quotient of a real extended real by a nonzero real one is real. -/
theorem div (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe a hb⟩

/-- Multiplication distributes over addition on real extended reals: x · (y + z) = x · y + x · z.
    (It fails at the infinities: -1 · (+∞ + -∞) = +∞ but -1 · +∞ + -1 · -∞ = -∞.) -/
theorem mul_add {z : EReal} (hx : IsReal x) (hy : IsReal y) (hz : IsReal z) :
    x * (y + z) = x * y + x * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, _root_.mul_add]

/-- Multiplication distributes over addition from the right on real extended reals:
    (x + y) · z = x · z + y · z. -/
theorem add_mul {z : EReal} (hx : IsReal x) (hy : IsReal y) (hz : IsReal z) :
    (x + y) * z = x * z + y * z := by
  rw [mul_comm, mul_add hz hx hy, mul_comm z x, mul_comm z y]

/-- A real factor moves into a finite sum of real extended reals: x · Σ_{i ∈ s} f i = Σ_{i ∈ s} x · f i. -/
theorem mul_sum {ι : Type*} {s : Finset ι} {f : ι → EReal} (hx : IsReal x)
    (hf : ∀ i ∈ s, IsReal (f i)) : x * ∑ i ∈ s, f i = ∑ i ∈ s, x * f i := by
  classical
  induction s using Finset.induction_on with
  | empty => rw [Finset.sum_empty, Finset.sum_empty, mul_zero]
  | insert a s ha ih =>
    have hs : ∀ i ∈ s, IsReal (f i) := fun i hi => hf i (Finset.mem_insert_of_mem hi)
    rw [Finset.sum_insert ha, Finset.sum_insert ha,
      mul_add hx (hf a (Finset.mem_insert_self a s)) (sum hs), ih hs]

/-- A real factor moves into a finite sum of real extended reals from the right:
    (Σ_{i ∈ s} f i) · x = Σ_{i ∈ s} f i · x. -/
theorem sum_mul {ι : Type*} {s : Finset ι} {f : ι → EReal} (hx : IsReal x)
    (hf : ∀ i ∈ s, IsReal (f i)) : (∑ i ∈ s, f i) * x = ∑ i ∈ s, f i * x := by
  rw [mul_comm, mul_sum hx hf]
  exact Finset.sum_congr rfl fun i _ => mul_comm _ _

end IsReal

/-- An extended real is real exactly when it is neither -∞ nor +∞. -/
theorem isReal_iff {x : EReal} : IsReal x ↔ x ≠ ⊥ ∧ x ≠ ⊤ :=
  ⟨fun h => ⟨h.ne_bot, h.ne_top⟩, fun h => ⟨x.toReal, (EReal.coe_toReal h.2 h.1).symm⟩⟩

/-! ### The maximum as a fold of max from -∞ -/

/-- The bit pattern 0xFF800000 of the 32-bit format denotes -∞, the value a maximum is folded from. -/
theorem ofBits_neg_inf_f32 : Ideal.ofBits .f32 0xFF800000#32 = ⊥ := by
  simp [Ideal.ofBits, Ideal.ieee]

/-- Every entry is below the maximum: f i ≤ max_{j ∈ s} f j (the fold of max from any start b). -/
theorem le_fold_max_of_mem {ι : Type*} {s : Finset ι} (b : EReal) (f : ι → EReal) {i : ι} (hi : i ∈ s) :
    f i ≤ s.fold Max.max b f :=
  (Finset.le_fold_max (f i)).mpr (Or.inr ⟨i, hi, le_rfl⟩)

/-- Over a nonempty finite set the maximum folded from -∞ is attained:
    max_{j ∈ s} f j = f i for some i ∈ s. -/
theorem exists_mem_fold_max_eq {ι : Type*} {s : Finset ι} (hs : s.Nonempty) (f : ι → EReal) :
    ∃ i ∈ s, s.fold Max.max ⊥ f = f i := by
  induction hs using Finset.Nonempty.cons_induction with
  | singleton a =>
    exact ⟨a, Finset.mem_singleton_self a, by rw [Finset.fold_singleton]; exact max_eq_left bot_le⟩
  | cons a s ha hs ih =>
    obtain ⟨i, hi, h⟩ := ih
    rw [Finset.fold_cons, h]
    rcases le_total (f a) (f i) with hle | hle
    · exact ⟨i, Finset.mem_cons.mpr (Or.inr hi), max_eq_right hle⟩
    · exact ⟨a, Finset.mem_cons_self a s, max_eq_left hle⟩

/-- Over a nonempty finite set the maximum, folded from -∞, of real extended reals is real. -/
theorem IsReal.fold_max {ι : Type*} {s : Finset ι} (hs : s.Nonempty) {f : ι → EReal}
    (hf : ∀ i ∈ s, IsReal (f i)) : IsReal (s.fold Max.max ⊥ f) := by
  obtain ⟨i, hi, h⟩ := exists_mem_fold_max_eq hs f
  rw [h]; exact hf i hi

/-- Over a nonempty finite index type the maximum, folded from -∞, of real extended reals is real. -/
theorem IsReal.fold_max_univ {ι : Type*} [Fintype ι] [Nonempty ι] {f : ι → EReal}
    (hf : ∀ i, IsReal (f i)) : IsReal ((Finset.univ : Finset ι).fold Max.max ⊥ f) :=
  IsReal.fold_max Finset.univ_nonempty fun i _ => hf i

/-- The bit pattern 0x0000 of the 16-bit brain format denotes 0, the value a rectifier compares with. -/
theorem ofBits_zero_bf16 : Ideal.ofBits .bf16 0x0000#16 = 0 := by
  simp [Ideal.ofBits, Ideal.ieee]

/-! ### Reality from the float finiteness test, and of integer conversions and contractions -/

/-- The bit pattern 0x7F800000 of the 32-bit format denotes +∞. -/
theorem ofBits_pos_inf_f32 : Ideal.ofBits .f32 0x7F800000#32 = ⊤ := by
  simp [Ideal.ofBits, Ideal.ieee]

/-- An extended real whose absolute value max(x, -x) is below +∞ is real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-- If the ordered less-than comparison of two extended reals answers true (the one-bit word 1),
    the first is below the second. -/
theorem lt_of_cmp_olt {a b : EReal} (h : Ideal.cmp .olt a b = 1#1) : a < b := by
  by_cases hlt : a < b
  · exact hlt
  · exfalso; simp [Ideal.cmp, hlt] at h

/-- The finiteness test |x| < +∞ as a float comparison: if the ordered less-than comparison of
    max(x, -x) with the value of the pattern 0x7F800000 (+∞) answers true, x is real. -/
theorem isReal_of_cmp_abs_lt_inf {x : EReal}
    (h : Ideal.cmp .olt (Max.max x (-x)) (Ideal.ofBits .f32 0x7F800000#32) = 1#1) : IsReal x := by
  rw [ofBits_pos_inf_f32] at h
  exact isReal_of_abs_lt_top (lt_of_cmp_olt h)

/-- A machine integer converted to a float, signed (its integer value read as a real), is real. -/
theorem isReal_sitofp {w : ℕ} (φ : FTy) (b : BitVec w) : IsReal (FloatOps.sitofp (F := Ideal) φ b) :=
  ⟨(b.toInt : ℝ), rfl⟩

/-- A machine integer converted to a float, unsigned (its natural value read as a real), is real. -/
theorem isReal_uitofp {w : ℕ} (φ : FTy) (b : BitVec w) : IsReal (FloatOps.uitofp (F := Ideal) φ b) :=
  ⟨(b.toNat : ℝ), rfl⟩

/-- A contraction Σ_k a_k · b_k of real extended reals over a finite index type is real. -/
theorem IsReal.dot {κ : Type*} [Fintype κ] {a b : κ → EReal} (ha : ∀ k, IsReal (a k))
    (hb : ∀ k, IsReal (b k)) : IsReal (∑ k, a k * b k) :=
  IsReal.sum_univ fun k => (ha k).mul (hb k)

/-- A contraction onto an accumulator, c + Σ_k a_k · b_k, of real extended reals is real. -/
theorem IsReal.add_dot {κ : Type*} [Fintype κ] {c : EReal} {a b : κ → EReal} (hc : IsReal c)
    (ha : ∀ k, IsReal (a k)) (hb : ∀ k, IsReal (b k)) : IsReal (c + ∑ k, a k * b k) :=
  hc.add (IsReal.dot ha hb)

/-! ### The softmax denominator -/

/-- The softmax denominator over a nonempty finite set.  For real x_l (l ∈ t) and m = max_{l ∈ t} x_l
    (folded from -∞), the sum Σ_{l ∈ t} exp(x_l - m) is the coercion of a real s ≥ 1: every term is a
    positive real and the term at an index where the maximum is attained is exp 0 = 1. -/
theorem exists_softmax_denominator_finset {ι : Type*} {t : Finset ι} (ht : t.Nonempty) {x : ι → EReal}
    (hx : ∀ l ∈ t, IsReal (x l)) :
    ∃ s : ℝ, 1 ≤ s ∧ ∑ l ∈ t, Ideal.exp (x l - t.fold Max.max ⊥ x) = (s : EReal) := by
  obtain ⟨i0, hi0, hm⟩ := exists_mem_fold_max_eq ht x
  rw [hm]
  refine ⟨∑ l ∈ t, Real.exp ((x l).toReal - (x i0).toReal), ?_, ?_⟩
  · calc (1 : ℝ) = Real.exp ((x i0).toReal - (x i0).toReal) := by rw [sub_self, Real.exp_zero]
      _ ≤ ∑ l ∈ t, Real.exp ((x l).toReal - (x i0).toReal) :=
        Finset.single_le_sum (f := fun l => Real.exp ((x l).toReal - (x i0).toReal))
          (fun l _ => (Real.exp_pos _).le) hi0
  · rw [coe_finset_sum]
    refine Finset.sum_congr rfl fun l hl => ?_
    obtain ⟨a, ha⟩ := hx l hl
    obtain ⟨b, hb⟩ := hx i0 hi0
    rw [ha, hb, ← EReal.coe_sub, Ideal.exp_coe]
    simp only [EReal.toReal_coe]

/-- The softmax denominator over a nonempty finite index type.  For real x_l and m = max_l x_l (folded
    from -∞), Σ_l exp(x_l - m) is the coercion of a real s ≥ 1; in particular it is real and not 0. -/
theorem exists_softmax_denominator {ι : Type*} [Fintype ι] [Nonempty ι] {x : ι → EReal}
    (hx : ∀ l, IsReal (x l)) :
    ∃ s : ℝ, 1 ≤ s ∧ ∑ l, Ideal.exp (x l - (Finset.univ : Finset ι).fold Max.max ⊥ x) = (s : EReal) :=
  exists_softmax_denominator_finset Finset.univ_nonempty fun l _ => hx l

/-- The softmax denominator is real: for real x_l over a nonempty finite index type,
    Σ_l exp(x_l - max_j x_j) is real. -/
theorem isReal_softmax_denominator {ι : Type*} [Fintype ι] [Nonempty ι] {x : ι → EReal}
    (hx : ∀ l, IsReal (x l)) :
    IsReal (∑ l, Ideal.exp (x l - (Finset.univ : Finset ι).fold Max.max ⊥ x)) := by
  obtain ⟨s, _, h⟩ := exists_softmax_denominator hx; exact ⟨s, h⟩

/-- The softmax denominator is not 0: for real x_l over a nonempty finite index type,
    Σ_l exp(x_l - max_j x_j) ≥ 1 > 0. -/
theorem softmax_denominator_ne_zero {ι : Type*} [Fintype ι] [Nonempty ι] {x : ι → EReal}
    (hx : ∀ l, IsReal (x l)) :
    ∑ l, Ideal.exp (x l - (Finset.univ : Finset ι).fold Max.max ⊥ x) ≠ 0 := by
  obtain ⟨s, hs, h⟩ := exists_softmax_denominator hx
  rw [h]
  exact EReal.coe_ne_zero.mpr (ne_of_gt (lt_of_lt_of_le one_pos hs))

end Idealize.ShloMosaic.LibERealLaws
-- ==== Proof.FiniteArgs.lean ====
/-
  Finiteness of the inputs, read back from the precondition.

  The precondition is the one-bit word 1 obtained as the conjunction, over the nine input arrays, of
  "every entry x satisfies |x| < +∞", each of these being an and-reduction over all entries of the
  comparison |x| < +∞ (with |x| = max(x, -x) on the extended reals).  A conjunction of one-bit words is 1
  only when both are; an and-reduction onto a single result is 1 only when every entry reduced is 1; and
  the comparison max(x, -x) < +∞ holding says that x is neither +∞ nor -∞, i.e. x is a real number.
  Hence every entry of every one of the nine arrays is real.
-/
import proofs.«121264_g42064909697411_cont_8to1_b_244_10_alg».proof.Pre_finite_inputs
import proofs.«121264_g42064909697411_cont_8to1_b_244_10_alg».proof.Proof.Gen.Pre_finite_inputs
import proofs.«121264_g42064909697411_cont_8to1_b_244_10_alg».proof.Proof.LibERealFinite
import Idealize.ShloMosaic.Lib.ReduceAll
import Idealize.ShloMosaic.Lib.ValueIdx
import Idealize.ShloMosaic.PureOps.Ideal

namespace Cert.Gru.FiniteArgs

open Idealize.ShloMosaic Idealize.ShloMosaic.LibERealLaws

/-- The scalar shape has exactly one index. -/
instance : Subsingleton Cert.Pre_finite_inputs.S_.Idx := ⟨fun a b => funext fun d => d.elim0⟩

/-- One array's test.  If the and-reduction over all entries of the comparison |x_i| < +∞ (the bound being
    the scalar +∞ broadcast to the array's shape) is 1 at the single result index, every x_i is real. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1)
    (e : Host.reduce IntOp.andi
          (cmpf .olt (Host.absf x)
            (broadcastInDim s ![] hb (constant (F := Ideal) Cert.Pre_finite_inputs.S_ .f32 0x7F800000#32)))
          init hr hu ValueIdx.ix0 = 1#1) :
    ∀ i, IsReal (x i) := fun i =>
  isReal_of_cmp_abs_lt_inf (x := x i) (Host.reduce_andi_all _ init hr hu ValueIdx.ix0 e i)

/-- Every entry of every one of the nine input arrays is real when the precondition holds. -/
theorem args_real [Cert.Pre_finite_inputs.Facts]
    (x0 : FVec Ideal Cert.Pre_finite_inputs.S2x2048x64 .f32) (x1 : FVec Ideal Cert.Pre_finite_inputs.S2x2048x2048 .f32)
    (x2 : FVec Ideal Cert.Pre_finite_inputs.S2x2048x64 .f32)
    (x3 x4 x5 : FVec Ideal Cert.Pre_finite_inputs.S5x128x64 .f32) (x6 x7 x8 : FVec Ideal Cert.Pre_finite_inputs.S2048x64 .f32)
    (h : Cert.Pre_finite_inputs.fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) := by
  have h0 := congrFun h ValueIdx.ix0
  dsimp only [Cert.Pre_finite_inputs.fn, Cert.Pre_finite_inputs.fn_part1, Cert.Pre_finite_inputs.fn_part2, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ _ x0 _ e0, real_of_all _ _ _ x1 _ e1, real_of_all _ _ _ x2 _ e2, real_of_all _ _ _ x3 _ e3,
    real_of_all _ _ _ x4 _ e4, real_of_all _ _ _ x5 _ e5, real_of_all _ _ _ x6 _ e6, real_of_all _ _ _ x7 _ e7,
    real_of_all _ _ _ x8 _ e8⟩

end Cert.Gru.FiniteArgs
-- ==== Proof.Algebra.lean ====
/-
  Horner's form of a diffusion convolution equals its sum of powers when every entry is a real number.

  On the extended reals multiplication does not distribute over addition at the infinities, so the identity
    A (A (A (A (Z v4) + Z v3) + Z v2) + Z v1) + Z v0  =  Z v0 + (A Z) v1 + (A A Z) v2 + (A A A Z) v3 + (A A A A Z) v4
  is proved where it holds: for arrays whose entries are casts of reals.  There both sides are casts of the same
  expressions over the reals (a cast commutes with finite sums and with products), and over the reals the
  identity is associativity of the matrix product and distributivity of a matrix over a sum of vectors.
  The gates' logistic function maps reals to reals, so the candidate's input array (X | r * H) is again real
  and the whole cell in Horner form equals the cell by powers.
-/
import Mathlib.Data.Matrix.Mul
import proofs.«121264_g42064909697411_cont_8to1_b_244_10_alg».proof.Proof.Spec
import proofs.«121264_g42064909697411_cont_8to1_b_244_10_alg».proof.Proof.LibERealFinite

noncomputable section

open scoped BigOperators

namespace Cert.Gru

open Idealize.ShloMosaic Idealize.ShloMosaic.LibERealLaws

/-! ## The same expressions over the reals -/

def catR (x y : Fin 2048 → Fin 64 → ℝ) (n : Fin 2048) (f : Fin 128) : ℝ :=
  if h : f.val < 64 then x n ⟨f.val, h⟩ else y n ⟨f.val - 64, by omega⟩

def pvR (z : Fin 2048 → Fin 128 → ℝ) (v : Fin 128 → ℝ) (n : Fin 2048) : ℝ := ∑ f : Fin 128, z n f * v f

def avR (a : Fin 2048 → Fin 2048 → ℝ) (p : Fin 2048 → ℝ) (n : Fin 2048) : ℝ := ∑ m : Fin 2048, a n m * p m

def hopR (a : Fin 2048 → Fin 2048 → ℝ) (t : Fin 2048 → Fin 128 → ℝ) : Fin 2048 → Fin 128 → ℝ :=
  fun n f => ∑ m : Fin 2048, a n m * t m f

def powersR (a : Fin 2048 → Fin 2048 → ℝ) (z : Fin 2048 → Fin 128 → ℝ) (v : Fin 5 → Fin 128 → ℝ) (n : Fin 2048) : ℝ :=
  pvR z (v 0) n + pvR (hopR a z) (v 1) n + pvR (hopR a (hopR a z)) (v 2) n + pvR (hopR a (hopR a (hopR a z))) (v 3) n
    + pvR (hopR a (hopR a (hopR a (hopR a z)))) (v 4) n

def hornerR (a : Fin 2048 → Fin 2048 → ℝ) (z : Fin 2048 → Fin 128 → ℝ) (v : Fin 5 → Fin 128 → ℝ) (n : Fin 2048) : ℝ :=
  avR a (fun m => avR a (fun m => avR a (fun m => avR a (pvR z (v 4)) m + pvR z (v 3) m) m + pvR z (v 2) m) m
    + pvR z (v 1) m) n + pvR z (v 0) n

/-! ## Casts move out of every stage -/

theorem cat_coe (x y : Fin 2048 → Fin 64 → ℝ) :
    cat (fun n j => (x n j : EReal)) (fun n j => (y n j : EReal)) = fun n f => (catR x y n f : EReal) := by
  funext n f
  unfold cat catR
  split_ifs <;> rfl

theorem pv_coe (z : Fin 2048 → Fin 128 → ℝ) (v : Fin 128 → ℝ) (n : Fin 2048) :
    pv (fun n f => (z n f : EReal)) (fun f => (v f : EReal)) n = (pvR z v n : EReal) := by
  unfold pv pvR
  rw [coe_finset_sum]
  exact Finset.sum_congr rfl fun f _ => (EReal.coe_mul _ _).symm

theorem av_coe (a : Fin 2048 → Fin 2048 → ℝ) (p : Fin 2048 → ℝ) (n : Fin 2048) :
    av (fun n m => (a n m : EReal)) (fun m => (p m : EReal)) n = (avR a p n : EReal) := by
  unfold av avR
  rw [coe_finset_sum]
  exact Finset.sum_congr rfl fun f _ => (EReal.coe_mul _ _).symm

theorem hop_coe (a : Fin 2048 → Fin 2048 → ℝ) (t : Fin 2048 → Fin 128 → ℝ) :
    hop (fun n m => (a n m : EReal)) (fun n f => (t n f : EReal)) = fun n f => (hopR a t n f : EReal) := by
  funext n f
  unfold hop hopR
  rw [coe_finset_sum]
  exact Finset.sum_congr rfl fun f _ => (EReal.coe_mul _ _).symm

theorem powers_coe (a : Fin 2048 → Fin 2048 → ℝ) (z : Fin 2048 → Fin 128 → ℝ) (v : Fin 5 → Fin 128 → ℝ) (n : Fin 2048) :
    powers (fun n m => (a n m : EReal)) (fun n f => (z n f : EReal)) (fun k f => (v k f : EReal)) n
      = (powersR a z v n : EReal) := by
  unfold powers powersR
  simp only [hop_coe, pv_coe, EReal.coe_add]

theorem horner_coe (a : Fin 2048 → Fin 2048 → ℝ) (z : Fin 2048 → Fin 128 → ℝ) (v : Fin 5 → Fin 128 → ℝ) (n : Fin 2048) :
    horner (fun n m => (a n m : EReal)) (fun n f => (z n f : EReal)) (fun k f => (v k f : EReal)) n
      = (hornerR a z v n : EReal) := by
  unfold horner hornerR
  have h4 : pv (fun n f => (z n f : EReal)) (fun f => (v 4 f : EReal)) = fun m => (pvR z (v 4) m : EReal) :=
    funext fun m => pv_coe z (v 4) m
  rw [h4]
  have e1 : (fun m => av (fun n m => (a n m : EReal)) (fun m => (pvR z (v 4) m : EReal)) m
        + pv (fun n f => (z n f : EReal)) (fun f => (v 3 f : EReal)) m)
      = fun m => ((avR a (pvR z (v 4)) m + pvR z (v 3) m : ℝ) : EReal) :=
    funext fun m => by rw [av_coe, pv_coe, EReal.coe_add]
  rw [e1]
  have e2 : (fun m => av (fun n m => (a n m : EReal)) (fun m => ((avR a (pvR z (v 4)) m + pvR z (v 3) m : ℝ) : EReal)) m
        + pv (fun n f => (z n f : EReal)) (fun f => (v 2 f : EReal)) m)
      = fun m => ((avR a (fun m => avR a (pvR z (v 4)) m + pvR z (v 3) m) m + pvR z (v 2) m : ℝ) : EReal) :=
    funext fun m => by rw [av_coe, pv_coe, EReal.coe_add]
  rw [e2]
  have e3 : (fun m => av (fun n m => (a n m : EReal))
          (fun m => ((avR a (fun m => avR a (pvR z (v 4)) m + pvR z (v 3) m) m + pvR z (v 2) m : ℝ) : EReal)) m
        + pv (fun n f => (z n f : EReal)) (fun f => (v 1 f : EReal)) m)
      = fun m => ((avR a (fun m => avR a (fun m => avR a (pvR z (v 4)) m + pvR z (v 3) m) m + pvR z (v 2) m) m
          + pvR z (v 1) m : ℝ) : EReal) :=
    funext fun m => by rw [av_coe, pv_coe, EReal.coe_add]
  rw [e3, av_coe, pv_coe, EReal.coe_add]

/-! ## Over the reals: matrix algebra -/

theorem hornerR_eq_powersR (a : Fin 2048 → Fin 2048 → ℝ) (z : Fin 2048 → Fin 128 → ℝ) (v : Fin 5 → Fin 128 → ℝ)
    (n : Fin 2048) : hornerR a z v n = powersR a z v n := by
  let M : Matrix (Fin 2048) (Fin 2048) ℝ := Matrix.of a
  let Z : Matrix (Fin 2048) (Fin 128) ℝ := Matrix.of z
  have key : M.mulVec (M.mulVec (M.mulVec (M.mulVec (Z.mulVec (v 4)) + Z.mulVec (v 3)) + Z.mulVec (v 2)) + Z.mulVec (v 1))
        + Z.mulVec (v 0)
      = Z.mulVec (v 0) + (M * Z).mulVec (v 1) + (M * (M * Z)).mulVec (v 2) + (M * (M * (M * Z))).mulVec (v 3)
        + (M * (M * (M * (M * Z)))).mulVec (v 4) := by
    simp only [Matrix.mulVec_add, Matrix.mulVec_mulVec]
    abel
  exact congrFun key n

/-- Horner's form equals the sum of powers on arrays of real numbers. -/
theorem horner_eq_powers (a : Fin 2048 → Fin 2048 → ℝ) (z : Fin 2048 → Fin 128 → ℝ) (v : Fin 5 → Fin 128 → ℝ)
    (n : Fin 2048) :
    horner (fun n m => (a n m : EReal)) (fun n f => (z n f : EReal)) (fun k f => (v k f : EReal)) n
      = powers (fun n m => (a n m : EReal)) (fun n f => (z n f : EReal)) (fun k f => (v k f : EReal)) n := by
  rw [horner_coe, powers_coe, hornerR_eq_powersR]

/-! ## The cell -/

/-- The logistic function of a real plus a real, times a real, is a real. -/
theorem gate_mul_coe (p b h : ℝ) :
    Ideal.logistic ((p : EReal) + (b : EReal)) * (h : EReal) = (((1 + Real.exp (-(p + b)))⁻¹ * h : ℝ) : EReal) := by
  rw [← EReal.coe_add, Ideal.logistic_coe, ← EReal.coe_mul]

/-- On real arrays the cell in Horner form is the cell by powers. -/
theorem hornerCell_eq_refCell (x : Fin 2048 → Fin 64 → ℝ) (a : Fin 2048 → Fin 2048 → ℝ) (h : Fin 2048 → Fin 64 → ℝ)
    (wr wu wc : Fin 5 → Fin 128 → Fin 64 → ℝ) (br bu bc : Fin 2048 → Fin 64 → ℝ) :
    hornerCell (fun n j => (x n j : EReal)) (fun n m => (a n m : EReal)) (fun n j => (h n j : EReal))
        (fun k f j => (wr k f j : EReal)) (fun k f j => (wu k f j : EReal)) (fun k f j => (wc k f j : EReal))
        (fun n j => (br n j : EReal)) (fun n j => (bu n j : EReal)) (fun n j => (bc n j : EReal))
      = refCell (fun n j => (x n j : EReal)) (fun n m => (a n m : EReal)) (fun n j => (h n j : EReal))
        (fun k f j => (wr k f j : EReal)) (fun k f j => (wu k f j : EReal)) (fun k f j => (wc k f j : EReal))
        (fun n j => (br n j : EReal)) (fun n j => (bu n j : EReal)) (fun n j => (bc n j : EReal)) := by
  funext n j
  unfold hornerCell refCell cell
  simp only [cat_coe, horner_eq_powers, powers_coe, gate_mul_coe]

end Cert.Gru

end
-- ==== Proof.Bridge.lean ====
/-
  From arrays whose entries are all real numbers to the equality of the two forms of the cell.

  An array of extended reals all of whose entries are real is the cast of an array of reals; on casts of real
  arrays the cell in Horner form equals the cell by powers.  Stated here for the batch-b slabs of arrays indexed
  by their coordinates, which is how both programs' results read their arguments.
-/
import proofs.«121264_g42064909697411_cont_8to1_b_244_10_alg».proof.Proof.Algebra
import Idealize.ShloMosaic.Lib.ValueIdx

noncomputable section

namespace Cert.Gru.Bridge

open Idealize.ShloMosaic Idealize.ShloMosaic.ValueIdx Idealize.ShloMosaic.LibERealLaws Cert.Gru

theorem cell_bridge
    (x0 : (⟨3, ![2, 2048, 64]⟩ : Shape).Idx → EReal) (x1 : (⟨3, ![2, 2048, 2048]⟩ : Shape).Idx → EReal)
    (x2 : (⟨3, ![2, 2048, 64]⟩ : Shape).Idx → EReal) (x3 x4 x5 : (⟨3, ![5, 128, 64]⟩ : Shape).Idx → EReal)
    (x6 x7 x8 : (⟨2, ![2048, 64]⟩ : Shape).Idx → EReal)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (h8 : ∀ i, IsReal (x8 i)) (b : Fin 2) (n : Fin 2048) (j : Fin 64) :
    hornerCell (fun n j => x0 (ix3 b n j)) (fun n k => x1 (ix3 b n k)) (fun n j => x2 (ix3 b n j))
        (fun k f j => x3 (ix3 k f j)) (fun k f j => x4 (ix3 k f j)) (fun k f j => x5 (ix3 k f j))
        (fun n j => x6 (ix2 n j)) (fun n j => x7 (ix2 n j)) (fun n j => x8 (ix2 n j)) n j
      = refCell (fun n j => x0 (ix3 b n j)) (fun n k => x1 (ix3 b n k)) (fun n j => x2 (ix3 b n j))
        (fun k f j => x3 (ix3 k f j)) (fun k f j => x4 (ix3 k f j)) (fun k f j => x5 (ix3 k f j))
        (fun n j => x6 (ix2 n j)) (fun n j => x7 (ix2 n j)) (fun n j => x8 (ix2 n j)) n j := by
  obtain ⟨g0, rfl⟩ := IsReal.exists_fun h0
  obtain ⟨g1, rfl⟩ := IsReal.exists_fun h1
  obtain ⟨g2, rfl⟩ := IsReal.exists_fun h2
  obtain ⟨g3, rfl⟩ := IsReal.exists_fun h3
  obtain ⟨g4, rfl⟩ := IsReal.exists_fun h4
  obtain ⟨g5, rfl⟩ := IsReal.exists_fun h5
  obtain ⟨g6, rfl⟩ := IsReal.exists_fun h6
  obtain ⟨g7, rfl⟩ := IsReal.exists_fun h7
  obtain ⟨g8, rfl⟩ := IsReal.exists_fun h8
  exact congrFun (congrFun (hornerCell_eq_refCell (fun n j => g0 (ix3 b n j)) (fun n k => g1 (ix3 b n k))
    (fun n j => g2 (ix3 b n j)) (fun k f j => g3 (ix3 k f j)) (fun k f j => g4 (ix3 k f j)) (fun k f j => g5 (ix3 k f j))
    (fun n j => g6 (ix2 n j)) (fun n j => g7 (ix2 n j)) (fun n j => g8 (ix2 n j))) n) j

end Cert.Gru.Bridge

end
-- ==== Proof.lean ====
/-
  The certificate of a graph-diffusion GRU cell: a fused kernel against its reference.

  The reference computes, for each of two batches, the reset and update gates as the logistic function of a
  diffusion convolution  sum_k A^k (X | H) W_k  plus a bias, the candidate state as tanh of the convolution of
  (X | r * H) plus a bias, and the new state  u * H + (1 - u) * candidate.  It forms the powers A^k (X | H) one
  hop at a time and adds the five products.  The kernel evaluates each convolution in Horner form,
  Z W_0 + A (Z W_1 + A (Z W_2 + A (Z W_3 + A (Z W_4)))), the two gates in one chain over packed weights, after the
  host has re-laid the weight arrays; its changes of float format are the identity on the extended reals.

  Horner's form equals the sum of powers by associativity of the matrix product and distributivity over sums,
  which hold for real entries; the precondition makes every input entry real, the logistic function maps reals to
  reals, and so the two programs end with the same array.  The kernel's value is read off its frame run, whose
  one block is the whole output array; the reference's from its run, one operation at a time.  Nothing was
  rewritten by the idealization, so there is nothing to preserve.
-/
import proofs.«121264_g42064909697411_cont_8to1_b_244_10_alg».proof.Defs
import proofs.«121264_g42064909697411_cont_8to1_b_244_10_alg».proof.Proof.Gen.Kernel
import proofs.«121264_g42064909697411_cont_8to1_b_244_10_alg».proof.Proof.Gen.Kernel.Skeleton
import proofs.«121264_g42064909697411_cont_8to1_b_244_10_alg».proof.Proof.Gen.Kernel.Launch
import proofs.«121264_g42064909697411_cont_8to1_b_244_10_alg».proof.Proof.Gen.Kernel.Points
import proofs.«121264_g42064909697411_cont_8to1_b_244_10_alg».proof.Proof.Gen.Kernel.Frame
import proofs.«121264_g42064909697411_cont_8to1_b_244_10_alg».proof.Proof.Gen.KernelIdeal
import proofs.«121264_g42064909697411_cont_8to1_b_244_10_alg».proof.Proof.Gen.KernelIdeal.Skeleton
import proofs.«121264_g42064909697411_cont_8to1_b_244_10_alg».proof.Proof.Gen.KernelIdeal.Launch
import proofs.«121264_g42064909697411_cont_8to1_b_244_10_alg».proof.Proof.Gen.KernelIdeal.Points
import proofs.«121264_g42064909697411_cont_8to1_b_244_10_alg».proof.Proof.Gen.KernelIdeal.Frame
import proofs.«121264_g42064909697411_cont_8to1_b_244_10_alg».proof.Proof.Gen.ReferenceIdeal
import proofs.«121264_g42064909697411_cont_8to1_b_244_10_alg».proof.Proof.Gen.Pre_finite_inputs
import proofs.«121264_g42064909697411_cont_8to1_b_244_10_alg».proof.Proof.Gen.KernelIdeal.Value
import proofs.«121264_g42064909697411_cont_8to1_b_244_10_alg».proof.Proof.Gen.ReferenceIdeal.Run
import proofs.«121264_g42064909697411_cont_8to1_b_244_10_alg».proof.Proof.Gen.ReferenceIdeal.Read
import proofs.«121264_g42064909697411_cont_8to1_b_244_10_alg».proof.Proof.KValue
import proofs.«121264_g42064909697411_cont_8to1_b_244_10_alg».proof.Proof.RefRead
import proofs.«121264_g42064909697411_cont_8to1_b_244_10_alg».proof.Proof.FiniteArgs
import proofs.«121264_g42064909697411_cont_8to1_b_244_10_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end at the Horner cell of the arguments: the kernel by its frame run,
    the reference because its sum of powers equals Horner's form on real entries. -/
theorem algebraic : Cert.algebraic_KernelIdeal_ReferenceIdeal := by
  intro m ρ m' ρ' hpre hagree
  refine ⟨fun c => Cert.Gru.KValue.GK m c, Cert.Gru.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  obtain ⟨r0, r1, r2, r3, r4, r5, r6, r7, r8⟩ := Cert.Gru.FiniteArgs.args_real _ _ _ _ _ _ _ _ _ (hpre c)
  funext i
  obtain ⟨b, n, j, rfl⟩ : ∃ (b : Fin 2) (n : Fin 2048) (j : Fin 64), i = ix3 b n j := ⟨i 0, i 1, i 2, eq_ix3 i⟩
  rw [Cert.Gru.RefRead.ref_at]
  exact (Cert.Gru.Bridge.cell_bridge _ _ _ _ _ _ _ _ _ r0 r1 r2 r3 r4 r5 r6 r7 r8 b n j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
